-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512x48 : Shape := ⟨3, ![1024, 512, 48]⟩
abbrev S48x128 : Shape := ⟨2, ![48, 128]⟩
abbrev S128 : Shape := ⟨1, ![128]⟩
abbrev S128x1 : Shape := ⟨2, ![128, 1]⟩
abbrev S_ : Shape := ⟨0, ![]⟩

class Facts : Prop where
  bcast_S_S1024x512x48 : S_.BroadcastsInDim S1024x512x48 (![] : Fin 0 → Fin S1024x512x48.rank)
  reducesTo_S1024x512x48_S_d0_1_2 : S1024x512x48.ReducesTo [0, 1, 2] S_
  h_S_ : 0 < S_.numel
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128 .f32) (main_arg5 : FVec F S128x1 .f32) (main_v13 : IVec S_ 1) (main_v16 : IVec S48x128 1) : IVec S_ 1 :=
  let main_c_5 : IVec S_ 1 := constantI S_ 1 1#1
  let main_v17 : IVec S_ 1 := (fun x v => Host.reduce IntOp.andi x v reducesTo_S48x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  main_v28

def fn {F : FTy → Type} [FloatOps F] (main_arg0 : FVec F S1024x512x48 .f32) (main_arg1 : FVec F S1024x512x48 .f32) (main_arg2 : FVec F S1024x512x48 .f32) (main_arg3 : FVec F S48x128 .f32) (main_arg4 : FVec F S128 .f32) (main_arg5 : FVec F S128x1 .f32) : IVec S_ 1 :=
  let main_v0 : FVec F S1024x512x48 .f32 := Host.absf main_arg0
  let main_cst : FVec F S_ .f32 := constant S_ .f32 0x7F800000#32
  let main_v1 : FVec F S1024x512x48 .f32 := broadcastInDim S1024x512x48 ![] bcast_S_S1024x512x48 main_cst
  let main_v2 : IVec S1024x512x48 1 := cmpf .olt main_v0 main_v1
  let main_c : IVec S_ 1 := constantI S_ 1 1#1
  let main_v3 : IVec S_ 1 := (fun x v => Host.reduce IntOp.andi x v reducesTo_S1024x512x48_S_d0_1_2 h_S_) main_v2 main_c
  let main_v4 : FVec F S1024x512x48 .f32 := Host.absf main_arg1
  let main_cst_0 : FVec F S_ .f32 := constant S_ .f32 0x7F800000#32
  let main_v5 : FVec F S1024x512x48 .f32 := broadcastInDim S1024x512x48 ![] bcast_S_S1024x512x48 main_cst_0
  let main_v6 : IVec S1024x512x48 1 := cmpf .olt main_v4 main_v5
  let main_c_1 : IVec S_ 1 := constantI S_ 1 1#1
  let main_v7 : IVec S_ 1 := (fun x v => Host.reduce IntOp.andi x v reducesTo_S1024x512x48_S_d0_1_2 h_S_) main_v6 main_c_1
  let main_v8 : IVec S_ 1 := andi main_v3 main_v7
  let main_v9 : FVec F S1024x512x48 .f32 := Host.absf main_arg2
  let main_cst_2 : FVec F S_ .f32 := constant S_ .f32 0x7F800000#32
  let main_v10 : FVec F S1024x512x48 .f32 := broadcastInDim S1024x512x48 ![] bcast_S_S1024x512x48 main_cst_2
  let main_v11 : IVec S1024x512x48 1 := cmpf .olt main_v9 main_v10
  let main_c_3 : IVec S_ 1 := constantI S_ 1 1#1
  let main_v12 : IVec S_ 1 := (fun x v => Host.reduce IntOp.andi x v reducesTo_S1024x512x48_S_d0_1_2 h_S_) main_v11 main_c_3
  let main_v13 : IVec S_ 1 := andi main_v8 main_v12
  let main_v14 : FVec F S48x128 .f32 := Host.absf main_arg3
  let main_cst_4 : FVec F S_ .f32 := constant S_ .f32 0x7F800000#32
  let main_v15 : FVec F S48x128 .f32 := broadcastInDim S48x128 ![] bcast_S_S48x128 main_cst_4
  let main_v16 : IVec S48x128 1 := cmpf .olt main_v14 main_v15
  fn_part1 (F := F) main_arg4 main_arg5 main_v13 main_v16
-- ==== Kernel.lean ====
abbrev S1024x512x48 : Shape := ⟨3, ![1024, 512, 48]⟩
abbrev S48x128 : Shape := ⟨2, ![48, 128]⟩
abbrev S128 : Shape := ⟨1, ![128]⟩
abbrev S128x1 : Shape := ⟨2, ![128, 1]⟩
abbrev S_ : Shape := ⟨0, ![]⟩
abbrev S128x256 : Shape := ⟨2, ![128, 256]⟩
abbrev S1 : Shape := ⟨1, ![1]⟩
abbrev S2 : Shape := ⟨1, ![2]⟩
abbrev S256 : Shape := ⟨1, ![256]⟩
abbrev S1x128 : Shape := ⟨2, ![1, 128]⟩
abbrev S1024x48 : Shape := ⟨2, ![1024, 48]⟩
abbrev S16x128x48 : Shape := ⟨3, ![16, 128, 48]⟩
abbrev S16x48 : Shape := ⟨2, ![16, 48]⟩
abbrev S16x128 : Shape := ⟨2, ![16, 128]⟩
abbrev S16x128x1 : Shape := ⟨3, ![16, 128, 1]⟩
abbrev S2048x48 : Shape := ⟨2, ![2048, 48]⟩
abbrev S2048x16 : Shape := ⟨2, ![2048, 16]⟩
abbrev S2048x128 : Shape := ⟨2, ![2048, 128]⟩
abbrev S2048x256 : Shape := ⟨2, ![2048, 256]⟩
abbrev S1x256 : Shape := ⟨2, ![1, 256]⟩
abbrev S16x128x128 : Shape := ⟨3, ![16, 128, 128]⟩
abbrev S16 : Shape := ⟨1, ![16]⟩
abbrev S16x1 : Shape := ⟨2, ![16, 1]⟩

abbrev nBuf : Space → Nat
  | .hbm => 23
  | .vmem => 15
  | .smem => 0
  | _ => 0

abbrev bufTy : (tb : Table) → Fin (tcTables nBuf tb) → BufTy
  | .hbm, ⟨0, _⟩ => ⟨S1024x512x48, .f32⟩
  | .hbm, ⟨1, _⟩ => ⟨S1024x512x48, .f32⟩
  | .hbm, ⟨2, _⟩ => ⟨S1024x512x48, .f32⟩
  | .hbm, ⟨3, _⟩ => ⟨S48x128, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x256, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S128x256, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x256, .f32⟩
  | .hbm, ⟨20, _⟩ => ⟨S256, .f32⟩
  | .hbm, ⟨21, _⟩ => ⟨S1x128, .f32⟩
  | .hbm, ⟨22, _⟩ => ⟨S1024x48, .f32⟩
  | .local _ .vmem, ⟨0, _⟩ => ⟨S16x128x48, .f32⟩
  | .local _ .vmem, ⟨1, _⟩ => ⟨S16x128x48, .f32⟩
  | .local _ .vmem, ⟨2, _⟩ => ⟨S16x128x48, .f32⟩
  | .local _ .vmem, ⟨3, _⟩ => ⟨S16x128x48, .f32⟩
  | .local _ .vmem, ⟨4, _⟩ => ⟨S16x128x48, .f32⟩
  | .local _ .vmem, ⟨5, _⟩ => ⟨S16x128x48, .f32⟩
  | .local _ .vmem, ⟨6, _⟩ => ⟨S128x256, .f32⟩
  | .local _ .vmem, ⟨7, _⟩ => ⟨S256, .f32⟩
  | .local _ .vmem, ⟨8, _⟩ => ⟨S1x128, .f32⟩
  | .local _ .vmem, ⟨9, _⟩ => ⟨S16x48, .f32⟩
  | .local _ .vmem, ⟨10, _⟩ => ⟨S16x48, .f32⟩
  | .local _ .vmem, ⟨11, _⟩ => ⟨S16x128, .f32⟩
  | .local _ .vmem, ⟨12, _⟩ => ⟨S16x128, .f32⟩
  | .local _ .vmem, ⟨13, _⟩ => ⟨S16x48, .f32⟩
  | .local _ .vmem, ⟨14, _⟩ => ⟨S16x48, .f32⟩
  | _, _ => ⟨S1024x512x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v64 : BitVec 1 := Scalar.cmpi .eq arg1 c3_i32
  let v65 : BitVec 32 := Scalar.extui v64
  let c0_i32_37 : BitVec 32 := 0#32
  let v66 : BitVec 1 := Scalar.cmpi .ne v65 c0_i32_37
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  concatenates_S128_S128_S256_d0 : Shape.Concatenates [S128, S128] S256 0
  shapeCasts_S128x1_S1x128 : S128x1.ShapeCasts S1x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x48_S16x48_0_0 : ∀ a, (![0, 0] : Fin 2 → Nat) a + S16x48.size a ≤ S16x48.size a
  h_S16x48 : 0 < S16x48.numel
  shapeCasts_S16x48_S16x48 : S16x48.ShapeCasts S16x48
  inb_S16x128x48_S16x128x48_0_0_0 : ∀ a, (![0, 0, 0] : Fin 3 → Nat) a + S16x128x48.size a ≤ S16x128x48.size a
  h_S16x128x48 : 0 < S16x128x48.numel
  reduces_S16x128x48_S16x128 : S16x128x48.Reduces [2] S16x128
  shapeCasts_S16x128_S16x128x1 : S16x128.ShapeCasts S16x128x1
  broadcasts_S16x128x1_S16x128x48 : S16x128x1.Broadcasts S16x128x48
  shapeCasts_S16x128x48_S2048x48 : S16x128x48.ShapeCasts S2048x48
  concatenates_S2048x48_S2048x16_S2048x48_S2048x16_S2048x128_d1 : Shape.Concatenates [S2048x48, S2048x16, S2048x48, S2048x16] S2048x128 1
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  slices_S2048x256_o0_0_S2048x128 : S2048x256.Slices ![0, 0] S2048x128
  shapeCasts_S2048x128_S16x128x128 : S2048x128.ShapeCasts S16x128x128
  slices_S2048x256_o0_128_S2048x128 : S2048x256.Slices ![0, 128] S2048x128
  reduces_S16x128x128_S16x128 : S16x128x128.Reduces [1] S16x128
  reduces_S16x128x48_S16x48 : S16x128x48.Reduces [1] S16x48
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  reduces_S16x128_S16 : S16x128.Reduces [1] S16
  shapeCasts_S16_S16x1 : S16.ShapeCasts S16x1
  broadcasts_S16x1_S16x48 : S16x1.Broadcasts S16x48
  scatter_S128x256_S2_S48x128_01_n_01_0_wf : ScatterDims.WF S128x256 S2 S48x128 [0, 1] [] [0, 1] 0
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x48.size a ≤ S1024x512x48.size a
  hwx0_0 : ∀ i : grid0.Coords, EltTy.bits .f32 = 32 ∨ (Rect.block (s := S1024x512x48) S16x128x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x48.size a ≤ S1024x512x48.size a
  hwx0_1 : ∀ i : grid0.Coords, EltTy.bits .f32 = 32 ∨ (Rect.block (s := S1024x512x48) S16x128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x48.size a ≤ S1024x512x48.size a
  hwx0_2 : ∀ i : grid0.Coords, EltTy.bits .f32 = 32 ∨ (Rect.block (s := S1024x512x48) S16x128x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x48.size a ≤ S1024x48.size a
  hwx0_6 : ∀ i : grid0.Coords, EltTy.bits .f32 = 32 ∨ (Rect.block (s := S1024x48) S16x48.size (cc0_transform_6 i) (hinb0_6 i)).WholeWords (EltTy.packing .f32)

variable [Facts₀]

def scatter_S128x256_S2_S48x128_01_n_01_0 : ScatterDims S128x256 S2 S48x128 where
  updateWindowDims := [0, 1]
  insertedWindowDims := []
  scatterDimsToOperandDims := [0, 1]
  indexVectorDim := 0
  wf := scatter_S128x256_S2_S48x128_01_n_01_0_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S16x128x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S16x48.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x512x48 : Shape := ⟨3, ![1024, 512, 48]⟩
abbrev S48x128 : Shape := ⟨2, ![48, 128]⟩
abbrev S128 : Shape := ⟨1, ![128]⟩
abbrev S128x1 : Shape := ⟨2, ![128, 1]⟩
abbrev S_ : Shape := ⟨0, ![]⟩
abbrev S1024x512 : Shape := ⟨2, ![1024, 512]⟩
abbrev S1024x512x1 : Shape := ⟨3, ![1024, 512, 1]⟩
abbrev S1024x1x512x48 : Shape := ⟨4, ![1024, 1, 512, 48]⟩
abbrev S1024x2x512x48 : Shape := ⟨4, ![1024, 2, 512, 48]⟩
abbrev S1024x2x512x128 : Shape := ⟨4, ![1024, 2, 512, 128]⟩
abbrev S1x1x1x128 : Shape := ⟨4, ![1, 1, 1, 128]⟩
abbrev S1024x2x512x1 : Shape := ⟨4, ![1024, 2, 512, 1]⟩
abbrev S1024x2x1 : Shape := ⟨3, ![1024, 2, 1]⟩
abbrev S1024x1 : Shape := ⟨2, ![1024, 1]⟩
abbrev S1024x1x1 : Shape := ⟨3, ![1024, 1, 1]⟩
abbrev S1024x2x1x1 : Shape := ⟨4, ![1024, 2, 1, 1]⟩
abbrev S1024x48 : Shape := ⟨2, ![1024, 48]⟩

abbrev nBuf : Space → Nat
  | .hbm => 63
  | .vmem => 0
  | .smem => 0
  | _ => 0

abbrev bufTy : (tb : Table) → Fin (tcTables nBuf tb) → BufTy
  | .hbm, ⟨0, _⟩ => ⟨S1024x512x48, .f32⟩
  | .hbm, ⟨1, _⟩ => ⟨S1024x512x48, .f32⟩
  | .hbm, ⟨2, _⟩ => ⟨S1024x512x48, .f32⟩
  | .hbm, ⟨3, _⟩ => ⟨S48x128, .f32⟩
  | .hbm, ⟨4, _⟩ => ⟨S128, .f32⟩
  | .hbm, ⟨5, _⟩ => ⟨S128x1, .f32⟩
  | .hbm, ⟨6, _⟩ => ⟨S1024x512x48, .f32⟩
  | .hbm, ⟨7, _⟩ => ⟨S_, .f32⟩
  | .hbm, ⟨8, _⟩ => ⟨S1024x512, .f32⟩
  | .hbm, ⟨9, _⟩ => ⟨S1024x512x48, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512x48, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512x1, .f32⟩
  | .hbm, ⟨23, _⟩ => ⟨S1024x512x48, .f32⟩
  | .hbm, ⟨24, _⟩ => ⟨S1024x512x48, .f32⟩
  | .hbm, ⟨25, _⟩ => ⟨S1024x1x512x48, .f32⟩
  | .hbm, ⟨26, _⟩ => ⟨S1024x1x512x48, .f32⟩
  | .hbm, ⟨27, _⟩ => ⟨S1024x2x512x48, .f32⟩
  | .hbm, ⟨28, _⟩ => ⟨S1024x2x512x128, .f32⟩
  | .hbm, ⟨29, _⟩ => ⟨S1x1x1x128, .f32⟩
  | .hbm, ⟨30, _⟩ => ⟨S1024x2x512x128, .f32⟩
  | .hbm, ⟨31, _⟩ => ⟨S1024x2x512x128, .f32⟩
  | .hbm, ⟨32, _⟩ => ⟨S1024x2x512x128, .f32⟩
  | .hbm, ⟨33, _⟩ => ⟨S1024x2x512x1, .f32⟩
  | .hbm, ⟨34, _⟩ => ⟨S_, .f32⟩
  | .hbm, ⟨35, _⟩ => ⟨S1024x2x1, .f32⟩
  | .hbm, ⟨36, _⟩ => ⟨S_, .f32⟩
  | .hbm, ⟨37, _⟩ => ⟨S1024x2x1, .f32⟩
  | .hbm, ⟨38, _⟩ => ⟨S1024x2x1, .f32⟩
  | .hbm, ⟨39, _⟩ => ⟨S_, .f32⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x1x1, .f32⟩
  | .hbm, ⟨45, _⟩ => ⟨S1024x2x1, .f32⟩
  | .hbm, ⟨46, _⟩ => ⟨S1024x2x1, .f32⟩
  | .hbm, ⟨47, _⟩ => ⟨S1024x2x1, .f32⟩
  | .hbm, ⟨48, _⟩ => ⟨S_, .f32⟩
  | .hbm, ⟨49, _⟩ => ⟨S1024x1, .f32⟩
  | .hbm, ⟨50, _⟩ => ⟨S1024x1x1, .f32⟩
  | .hbm, ⟨51, _⟩ => ⟨S1024x2x1, .f32⟩
  | .hbm, ⟨52, _⟩ => ⟨S1024x2x1, .f32⟩
  | .hbm, ⟨53, _⟩ => ⟨S1024x2x1x1, .f32⟩
  | .hbm, ⟨54, _⟩ => ⟨S1024x2x512x48, .f32⟩
  | .hbm, ⟨55, _⟩ => ⟨S1024x2x512x48, .f32⟩
  | .hbm, ⟨56, _⟩ => ⟨S_, .f32⟩
  | .hbm, ⟨57, _⟩ => ⟨S1024x512x48, .f32⟩
  | .hbm, ⟨58, _⟩ => ⟨S_, .f32⟩
  | .hbm, ⟨59, _⟩ => ⟨S1024x48, .f32⟩
  | .hbm, ⟨60, _⟩ => ⟨S_, .f32⟩
  | .hbm, ⟨61, _⟩ => ⟨S1024x48, .f32⟩
  | .hbm, ⟨62, _⟩ => ⟨S1024x48, .f32⟩
  | _, _ => ⟨S1024x512x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v2 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  reducesTo_S1024x512x48_S1024x512_d2 : S1024x512x48.ReducesTo [2] S1024x512
  h_S_ : 0 < S_.numel
  bcast_S_S1024x512 : S_.BroadcastsInDim S1024x512 (![] : Fin 0 → Fin S1024x512.rank)
  bcast_S1024x512_S1024x512x1_0_1 : S1024x512.BroadcastsInDim S1024x512x1 (![0, 1] : Fin 2 → Fin S1024x512x1.rank)
  bcast_S1024x512x1_S1024x512x48_0_1_2 : S1024x512x1.BroadcastsInDim S1024x512x48 (![0, 1, 2] : Fin 3 → Fin S1024x512x48.rank)
  bcast_S1024x512x48_S1024x1x512x48_0_2_3 : S1024x512x48.BroadcastsInDim S1024x1x512x48 (![0, 2, 3] : Fin 3 → Fin S1024x1x512x48.rank)
  concatenates_S1024x1x512x48_S1024x1x512x48_S1024x2x512x48_d1 : Shape.Concatenates [S1024x1x512x48, S1024x1x512x48] S1024x2x512x48 1
  bcast_S128_S1x1x1x128_3 : S128.BroadcastsInDim S1x1x1x128 (![3] : Fin 1 → Fin S1x1x1x128.rank)
  bcast_S1x1x1x128_S1024x2x512x128_0_1_2_3 : S1x1x1x128.BroadcastsInDim S1024x2x512x128 (![0, 1, 2, 3] : Fin 4 → Fin S1024x2x512x128.rank)
  reducesTo_S1024x2x512x1_S1024x2x1_d2 : S1024x2x512x1.ReducesTo [2] S1024x2x1
  bcast_S_S1024x2x1 : S_.BroadcastsInDim S1024x2x1 (![] : Fin 0 → Fin S1024x2x1.rank)
  reducesTo_S1024x2x1_S1024x1_d1 : S1024x2x1.ReducesTo [1] S1024x1
  bcast_S_S1024x1 : S_.BroadcastsInDim S1024x1 (![] : Fin 0 → Fin S1024x1.rank)
  bcast_S1024x1_S1024x1x1_0_2 : S1024x1.BroadcastsInDim S1024x1x1 (![0, 2] : Fin 2 → Fin S1024x1x1.rank)
  bcast_S1024x1x1_S1024x2x1_0_1_2 : S1024x1x1.BroadcastsInDim S1024x2x1 (![0, 1, 2] : Fin 3 → Fin S1024x2x1.rank)
  bcast_S1024x2x1_S1024x2x1x1_0_1_2 : S1024x2x1.BroadcastsInDim S1024x2x1x1 (![0, 1, 2] : Fin 3 → Fin S1024x2x1x1.rank)
  bcast_S1024x2x1x1_S1024x2x512x48_0_1_2_3 : S1024x2x1x1.BroadcastsInDim S1024x2x512x48 (![0, 1, 2, 3] : Fin 4 → Fin S1024x2x512x48.rank)
  reducesTo_S1024x2x512x48_S1024x512x48_d1 : S1024x2x512x48.ReducesTo [1] S1024x512x48
  reducesTo_S1024x512x48_S1024x48_d1 : S1024x512x48.ReducesTo [1] S1024x48
  bcast_S_S1024x48 : S_.BroadcastsInDim S1024x48 (![] : Fin 0 → Fin S1024x48.rank)
  dot_S1024x2x512x48_S48x128_S1024x2x512x128_3_0_012_1_n_n_wf : DotDims.WF S1024x2x512x48 S48x128 S1024x2x512x128 [3] [0] [0, 1, 2] [1] [] []
  dot_S1024x2x512x128_S128x1_S1024x2x512x1_3_0_012_1_n_n_wf : DotDims.WF S1024x2x512x128 S128x1 S1024x2x512x1 [3] [0] [0, 1, 2] [1] [] []

variable [Facts₀]

def dot_S1024x2x512x48_S48x128_S1024x2x512x128_3_0_012_1_n_n : DotDims S1024x2x512x48 S48x128 S1024x2x512x128 where
  lhsContracting := [3]
  rhsContracting := [0]
  lhsNonContracting := [0, 1, 2]
  rhsNonContracting := [1]
  lhsBatch := []
  rhsBatch := []
  wf := dot_S1024x2x512x48_S48x128_S1024x2x512x128_3_0_012_1_n_n_wf
def dot_S1024x2x512x128_S128x1_S1024x2x512x1_3_0_012_1_n_n : DotDims S1024x2x512x128 S128x1 S1024x2x512x1 where
  lhsContracting := [3]
  rhsContracting := [0]
  lhsNonContracting := [0, 1, 2]
  rhsNonContracting := [1]
  lhsBatch := []
  rhsBatch := []
  wf := dot_S1024x2x512x128_S128x1_S1024x2x512x1_3_0_012_1_n_n_wf

class Facts : Prop extends Facts₀ where

variable [Facts]
-- ==== Proof.Pieces.lean ====
/-
  What one run of the kernel body leaves in its four accumulators and in its output block, as values.

  The body keeps four running sums over the tokens of a batch tile: the two branches' hidden rows (16 × 128 each) and the
  two branches' feature rows (16 × 48 each). At the tile's first token chunk it clears them; at every chunk it adds the
  chunk's token sums; at the last chunk it also computes the output block from the finished sums. Each lemma reads the
  block the body's covering store leaves back as the store's value: the chunk's token sum added to what the accumulator
  held (the zero block at the first chunk).
-/
import proofs.«128080_j89644557402222_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- At a batch tile's first token chunk accumulator 0 is left at the zero block plus the first branch's hidden rows summed over the chunk's tokens. -/
theorem acc0_A (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = k0_pay1 (k0_pay12 x0 x1 x2 x3 x4) k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S16x128) hz2, View.readCov_unit_zero (S := S16x128) _ hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At a batch tile's first token chunk accumulator 1 is left at the zero block plus the second branch's hidden rows summed over the chunk's tokens. -/
theorem acc1_A (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = k0_pay2 (k0_pay11 x0 x1 x2 x3 x4) k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S16x128) hz2, View.readCov_unit_zero (S := S16x128) _ hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At a batch tile's first token chunk accumulator 2 is left at the zero block plus the similarity-weighted spatial rows summed over the chunk's tokens. -/
theorem acc2_A (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = k0_pay3 (k0_pay10 x0 x1) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S16x48) hz2, View.readCov_unit_zero (S := S16x48) _ hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At a batch tile's first token chunk accumulator 3 is left at the zero block plus the temporal rows summed over the chunk's tokens. -/
theorem acc3_A (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) :
    sout0_A_3 c i arg2 harg2 arg3 harg3 arg4 harg4 arg5 harg5 arg6 harg6 arg7 harg7 arg8 harg8 arg9 harg9 arg10 harg10 arg11 harg11 arg12 harg12 hc0 hc1 x0 x1 x2 x3 x4 x5 = k0_pay4 x2 k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S16x48) hz2, View.readCov_unit_zero (S := S16x48) _ hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At a middle token chunk accumulator 0 is left at what it held plus the first branch's hidden rows summed over the chunk's tokens. -/
theorem acc0_B (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (k0_pay12 x0 x1 x2 x3 x4) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At a middle token chunk accumulator 1 is left at what it held plus the second branch's hidden rows summed over the chunk's tokens. -/
theorem acc1_B (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay2 (k0_pay11 x0 x1 x2 x3 x4) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At a middle token chunk accumulator 2 is left at what it held plus the similarity-weighted spatial rows summed over the chunk's tokens. -/
theorem acc2_B (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay3 (k0_pay10 x0 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At a middle token chunk accumulator 3 is left at what it held plus the temporal rows summed over the chunk's tokens. -/
theorem acc3_B (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : ¬cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay4 x2 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At the last token chunk accumulator 0 is left at what it held plus the first branch's hidden rows summed over the chunk's tokens. -/
theorem acc0_C (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (k0_pay12 x0 x1 x2 x3 x4) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At the last token chunk accumulator 1 is left at what it held plus the second branch's hidden rows summed over the chunk's tokens. -/
theorem acc1_C (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay2 (k0_pay11 x0 x1 x2 x3 x4) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At the last token chunk accumulator 2 is left at what it held plus the similarity-weighted spatial rows summed over the chunk's tokens. -/
theorem acc2_C (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay3 (k0_pay10 x0 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At the last token chunk accumulator 3 is left at what it held plus the temporal rows summed over the chunk's tokens. -/
theorem acc3_C (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay4 x2 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

/-- At the last token chunk the output block is the epilogue of the four accumulators as the chunk leaves them. -/
theorem out_C (c : Dev nD) (i : grid0.Coords) (arg2 : Memref sig .tc .vmem S16x128x48 .f32) (harg2 : arg2.IsWhole) (arg3 : Memref sig .tc .vmem S16x128x48 .f32) (harg3 : arg3.IsWhole) (arg4 : Memref sig .tc .vmem S16x128x48 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1x128 .f32) (harg7 : arg7.IsWhole) (arg8 : Memref sig .tc .vmem S16x48 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x48 .f32) (harg11 : arg11.IsWhole) (arg12 : Memref sig .tc .vmem S16x48 .f32) (harg12 : arg12.IsWhole) (hc0 : ¬cond0_0 i) (hc1 : cond0_1 i)
    (x0 : Vec F S16x128x48 .f32) (x1 : Vec F S16x128x48 .f32) (x2 : Vec F S16x128x48 .f32) (x3 : Vec F S128x256 .f32) (x4 : Vec F S256 .f32) (x5 : Vec F S1x128 .f32) (xs0 : Vec F S16x128 .f32) (xs1 : Vec F S16x128 .f32) (xs2 : Vec F S16x48 .f32) (xs3 : Vec F S16x48 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay5 (k0_pay1 (k0_pay12 x0 x1 x2 x3 x4) xs0) (k0_pay2 (k0_pay11 x0 x1 x2 x3 x4) xs1) x5 (k0_pay3 (k0_pay10 x0 x1) xs2) (k0_pay4 x2 xs3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readCov_unit_zero (S := S16x128) _ hz2, View.readCov_unit_zero (S := S16x48) _ hz2, View.readAt_eq_ld, harg2.read_unread, harg3.read_unread, harg4.read_unread, harg5.read_unread, harg6.read_unread, harg7.read_unread, harg9.read_unread, harg10.read_unread, harg11.read_unread, harg12.read_unread, View.ld_unit_zero (S := S16x128x48) hz3, View.ld_unit_zero (S := S128x256) hz2, View.ld_unit_zero (S := S256) hz1, View.ld_unit_zero (S := S1x128) hz2, View.ld_unit_zero (S := S16x128) hz2, View.ld_unit_zero (S := S16x48) hz2]

end Cert.KernelIdeal.Pieces

end
-- ==== Proof.Pooled.lean ====
/-
  The pooled two-branch attention, as one function of the six argument arrays over the extended reals, in the
  two arrangements in which it is computed.

  For a batch entry `b` and a token `n` the cosine similarity of the spatial and the image feature rows is
  `sim b n = ⟨s, i⟩ / max (‖s‖ · ‖i‖) ε`; branch 0 is the spatial row scaled by it, branch 1 the temporal row.
  Each branch goes through `tanh (z · W1 + b1)`; its score is the mean over the tokens of the hidden row projected
  on `W2`; the two scores go through a two-way softmax (shifted by their maximum), and the result is the softmax-weighted
  sum of the two branches' token means.

  The two arrangements differ in where the mean over the 512 tokens is taken:
  • `pooledMeanLast`: project every token on `W2`, sum over the tokens, divide by 512; weight every token's two
    branch rows by the softmax, add them, sum over the tokens, divide by 512.
  • `pooledMeanFirst`: sum the hidden rows (and the branch rows) over the tokens first, multiply by the dyadic
    `1/512`, and only then project on `W2` (and weight by the softmax).
  Over the reals the two are equal because the projection and the weighting are linear and `x / 512 = x · (1/512)`.
-/
import Idealize.ShloMosaic.PureOps.Ideal

noncomputable section

namespace Cert.Pooled

open Idealize.ShloMosaic

/-- A [1024, 512, 48] array read by coordinates: batch entry, token, feature. -/
abbrev Tok := Fin 1024 → Fin 512 → Fin 48 → EReal

/-- The similarity's floor `ε` (the f32 nearest to 1e-8). -/
def eps : EReal := Ideal.ofBits .f32 0x322BCC77#32
/-- The dyadic `1/512` (an exact f32). -/
def inv512 : EReal := Ideal.ofBits .f32 0x3B000000#32
/-- The number of tokens, `512` (an exact f32). -/
def c512 : EReal := Ideal.ofBits .f32 0x44000000#32

/-- Cosine similarity of the spatial row `S b n` and the image row `I b n`, its denominator floored at `ε`. -/
def sim (I S : Tok) (b : Fin 1024) (n : Fin 512) : EReal :=
  Ideal.div (∑ d, S b n d * I b n d)
    (max (Ideal.sqrt (∑ d, S b n d * S b n d) * Ideal.sqrt (∑ d, I b n d * I b n d)) eps)

/-- Branch 0: the spatial features weighted by the similarity. -/
def weighted (I S : Tok) : Tok := fun b n d => sim I S b n * S b n d

/-- The hidden layer of a branch `Z`: `tanh (Z b n · W1 + B1)`, 128 units per token. -/
def hidden (Z : Tok) (W1 : Fin 48 → Fin 128 → EReal) (B1 : Fin 128 → EReal)
    (b : Fin 1024) (n : Fin 512) (c : Fin 128) : EReal :=
  Ideal.tanh ((∑ d, Z b n d * W1 d c) + B1 c)

/-- The two-way softmax of the scores `x`, `y`, shifted by their maximum: the weight of `x`; -/
def soft0 (x y : EReal) : EReal :=
  Ideal.div (Ideal.exp (x - max x y)) (Ideal.exp (x - max x y) + Ideal.exp (y - max x y))
/-- and the weight of `y`. -/
def soft1 (x y : EReal) : EReal :=
  Ideal.div (Ideal.exp (y - max x y)) (Ideal.exp (x - max x y) + Ideal.exp (y - max x y))

/-- A branch's score with the mean taken LAST: every token's hidden row projected on `W2`, summed over the tokens,
    divided by 512. -/
def scoreMeanLast (H : Fin 1024 → Fin 512 → Fin 128 → EReal) (W2 : Fin 128 → EReal) (b : Fin 1024) : EReal :=
  Ideal.div (∑ n, ∑ c, H b n c * W2 c) c512

/-- A branch's score with the mean taken FIRST: the hidden rows summed over the tokens, times `1/512`, projected on `W2`. -/
def scoreMeanFirst (H : Fin 1024 → Fin 512 → Fin 128 → EReal) (W2 : Fin 128 → EReal) (b : Fin 1024) : EReal :=
  ∑ c, ((∑ n, H b n c) * inv512) * W2 c

/-- The pooled result with every mean taken last. -/
def pooledMeanLast (I S T : Tok) (W1 : Fin 48 → Fin 128 → EReal) (B1 W2 : Fin 128 → EReal)
    (b : Fin 1024) (d : Fin 48) : EReal :=
  Ideal.div (∑ n,
      (weighted I S b n d * soft0 (scoreMeanLast (hidden (weighted I S) W1 B1) W2 b) (scoreMeanLast (hidden T W1 B1) W2 b)
        + T b n d * soft1 (scoreMeanLast (hidden (weighted I S) W1 B1) W2 b) (scoreMeanLast (hidden T W1 B1) W2 b))) c512

/-- The pooled result with every mean taken first. -/
def pooledMeanFirst (I S T : Tok) (W1 : Fin 48 → Fin 128 → EReal) (B1 W2 : Fin 128 → EReal)
    (b : Fin 1024) (d : Fin 48) : EReal :=
  soft0 (scoreMeanFirst (hidden (weighted I S) W1 B1) W2 b) (scoreMeanFirst (hidden T W1 B1) W2 b)
      * ((∑ n, weighted I S b n d) * inv512)
    + soft1 (scoreMeanFirst (hidden (weighted I S) W1 B1) W2 b) (scoreMeanFirst (hidden T W1 B1) W2 b)
      * ((∑ n, T b n d) * inv512)

end Cert.Pooled

end
-- ==== Proof.Payload.lean ====
/-
  The body's arithmetic read at an index, over the extended reals.

  Each of the body's stored values is a pure function of the blocks it loaded. Here every such function is read at one
  index of its result: the similarity-weighted spatial row, the packed matrix product with its bias and `tanh`, the four
  token sums a chunk adds to the accumulators, and the epilogue that turns the finished sums into the output block.
-/
import proofs.«128080_j89644557402222_2_alg».proof.Proof.Gen.KernelIdeal.Skeleton
import proofs.«128080_j89644557402222_2_alg».proof.Proof.Pooled
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Pooled

/-- The cosine similarity of one spatial row `s` and one image row `i`, its denominator floored at `ε`. -/
def rowSim (s i : Fin 48 → EReal) : EReal :=
  Ideal.div (∑ d, s d * i d) (max (Ideal.sqrt (∑ d, s d * s d) * Ideal.sqrt (∑ d, i d * i d)) eps)

/-- One token's hidden unit `c`: `tanh (z · W1[:, c] + B1 c)`. -/
def rowHidden (z : Fin 48 → EReal) (W1 : Fin 48 → Fin 128 → EReal) (B1 : Fin 128 → EReal) (c : Fin 128) : EReal :=
  Ideal.tanh ((∑ d, z d * W1 d c) + B1 c)

theorem sim_eq_rowSim (I S : Tok) (b : Fin 1024) (n : Fin 512) : sim I S b n = rowSim (S b n) (I b n) := rfl
theorem hidden_eq_rowHidden (Z : Tok) (W1 : Fin 48 → Fin 128 → EReal) (B1 : Fin 128 → EReal) (b : Fin 1024) (n : Fin 512)
    (c : Fin 128) : hidden Z W1 B1 b n c = rowHidden (Z b n) W1 B1 c := rfl

/-! ## Layout steps -/

/-- A [16, 128] array given a trailing unit axis and broadcast along 48 features reads, at (r, n, d), the array at (r, n). -/
theorem keepdims_row {α : Type} (v : S16x128.Idx → α) (h1 : S16x128.ShapeCasts S16x128x1) (h2 : S16x128x1.Broadcasts S16x128x48)
    (r : Fin 16) (n : Fin 128) (d : Fin 48) :
    broadcastTo S16x128x48 (shapeCast S16x128x1 v h1) h2 (ix3 r n d) = v (ix2 r n) := by
  rw [broadcastTo_apply _ h2 (ix3 r n d) (ix3 r n (0 : Fin 1)) (fun a => by
    match a with
    | ⟨0, _⟩ => rfl
    | ⟨1, _⟩ => rfl
    | ⟨2, _⟩ => rfl)]
  exact shapeCast_apply v h1 _ _ (by
    rw [Shape.rowMajor_val_two, Shape.rowMajor_val_three]
    show r.val * 128 + n.val = (r.val * 128 + n.val) * 1 + 0
    omega)

/-- The index of a sum over the feature axis of a [16, 128, 48] block. -/
theorem lift_feat (h : S16x128x48.Reduces [2] S16x128) (r : Fin 16) (n : Fin 128) (d : Fin 48) :
    h.lift (ix2 r n) d = ix3 r n d := by
  funext a
  match a with
  | ⟨0, _⟩ => rfl
  | ⟨1, _⟩ => rfl
  | ⟨2, _⟩ => rfl

/-! ## The similarity-weighted spatial rows -/

/-- A sum over the feature axis of a [16, 128, 48] block, at token (r, n). -/
theorem sum_feat (v : FVec Ideal S16x128x48 .f32) (h : S16x128x48.Reduces [2] S16x128) (hφ : FKind.Formats FTy.f32)
    (hacc : (0x00000000#32 : BitVec FTy.f32.bits) = FKind.add.neutral FTy.f32 hφ) (r : Fin 16) (n : Fin 128) :
    multiReduction .add [2] S16x128 v 0x00000000#32 h hφ hacc (ix2 r n) = ∑ d : Fin 48, v (ix3 r n d) :=
  (Ideal.multiReduction_add_single v 0x00000000#32 h hφ hacc (ix2 r n)).trans
    (Finset.sum_congr rfl fun d _ => congrArg v (lift_feat h r n d))

/-- The weighted block at (r, n, d): the similarity of token (r, n)'s spatial and image rows times the spatial entry. -/
theorem weighted_apply (X0 X1 : S16x128x48.Idx → EReal) (r : Fin 16) (n : Fin 128) (d : Fin 48) :
    k0_pay10 (F := Ideal) X0 X1 (ix3 r n d)
      = rowSim (fun d => X1 (ix3 r n d)) (fun d => X0 (ix3 r n d)) * X1 (ix3 r n d) := by
  unfold k0_pay10
  rw [mulf_apply, keepdims_row]
  simp only [divf_apply, maximumf_apply, mulf_apply, sqrt, broadcast_apply]
  erw [sum_feat, sum_feat, sum_feat]
  rfl

/-! ## Rows of a flattened block -/

/-- Token (r, n) of a 16 × 128 tile as one of its 2048 flattened rows. -/
abbrev row (r : Fin 16) (n : Fin 128) : Fin 2048 := ⟨128 * r.val + n.val, by have := r.isLt; have := n.isLt; omega⟩

/-- A [16, 128, 48] block flattened to [2048, 48] reads, at (row r n, d), the block at (r, n, d). -/
theorem flatten_apply {α : Type} (v : S16x128x48.Idx → α) (h : S16x128x48.ShapeCasts S2048x48) (r : Fin 16) (n : Fin 128)
    (d : Fin 48) : shapeCast S2048x48 v h (ix2 (row r n) d) = v (ix3 r n d) :=
  shapeCast_apply v h _ _ (by
    rw [Shape.rowMajor_val_three, Shape.rowMajor_val_two]
    show (r.val * 128 + n.val) * 48 + d.val = (128 * r.val + n.val) * 48 + d.val
    omega)

/-- A [2048, 128] array unflattened to [16, 128, 128] reads, at (r, n, c), the array at (row r n, c). -/
theorem unflatten_apply {α : Type} (v : S2048x128.Idx → α) (h : S2048x128.ShapeCasts S16x128x128) (r : Fin 16) (n : Fin 128)
    (c : Fin 128) : shapeCast S16x128x128 v h (ix3 r n c) = v (ix2 (row r n) c) :=
  shapeCast_apply v h _ _ (by
    rw [Shape.rowMajor_val_three, Shape.rowMajor_val_two]
    show (128 * r.val + n.val) * 128 + c.val = (r.val * 128 + n.val) * 128 + c.val
    omega)

/-! ## Sums over the token axis -/

theorem lift_tok128 (h : S16x128x128.Reduces [1] S16x128) (r : Fin 16) (c : Fin 128) (n : Fin 128) :
    h.lift (ix2 r c) n = ix3 r n c := by
  funext a
  match a with
  | ⟨0, _⟩ => rfl
  | ⟨1, _⟩ => rfl
  | ⟨2, _⟩ => rfl

theorem lift_tok48 (h : S16x128x48.Reduces [1] S16x48) (r : Fin 16) (d : Fin 48) (n : Fin 128) :
    h.lift (ix2 r d) n = ix3 r n d := by
  funext a
  match a with
  | ⟨0, _⟩ => rfl
  | ⟨1, _⟩ => rfl
  | ⟨2, _⟩ => rfl

/-- A sum over the 128 tokens of a [16, 128, 128] block, at (r, c). -/
theorem sum_tok128 (v : FVec Ideal S16x128x128 .f32) (h : S16x128x128.Reduces [1] S16x128) (hφ : FKind.Formats FTy.f32)
    (hacc : (0x00000000#32 : BitVec FTy.f32.bits) = FKind.add.neutral FTy.f32 hφ) (r : Fin 16) (c : Fin 128) :
    multiReduction .add [1] S16x128 v 0x00000000#32 h hφ hacc (ix2 r c) = ∑ n : Fin 128, v (ix3 r n c) :=
  (Ideal.multiReduction_add_single v 0x00000000#32 h hφ hacc (ix2 r c)).trans
    (Finset.sum_congr rfl fun n _ => congrArg v (lift_tok128 h r c n))

/-- A sum over the 128 tokens of a [16, 128, 48] block, at (r, d). -/
theorem sum_tok48 (v : FVec Ideal S16x128x48 .f32) (h : S16x128x48.Reduces [1] S16x48) (hφ : FKind.Formats FTy.f32)
    (hacc : (0x00000000#32 : BitVec FTy.f32.bits) = FKind.add.neutral FTy.f32 hφ) (r : Fin 16) (d : Fin 48) :
    multiReduction .add [1] S16x48 v 0x00000000#32 h hφ hacc (ix2 r d) = ∑ n : Fin 128, v (ix3 r n d) :=
  (Ideal.multiReduction_add_single v 0x00000000#32 h hφ hacc (ix2 r d)).trans
    (Finset.sum_congr rfl fun n _ => congrArg v (lift_tok48 h r d n))

/-! ## What a chunk adds to the four accumulators -/

/-- Accumulator 0 after a chunk: what it held plus the sum over the chunk's tokens of the first 128 hidden columns' source. -/
theorem acc0_apply (v36 : S2048x128.Idx → EReal) (v40 : S16x128.Idx → EReal) (r : Fin 16) (c : Fin 128) :
    k0_pay1 (F := Ideal) v36 v40 (ix2 r c) = v40 (ix2 r c) + ∑ n : Fin 128, v36 (ix2 (row r n) c) := by
  unfold k0_pay1
  rw [shapeCast_self, addf_apply]
  erw [sum_tok128]
  simp only [unflatten_apply]

/-- Accumulator 1 after a chunk: what it held plus the sum over the chunk's tokens of columns 128 … 255. -/
theorem acc1_apply (v35 : S2048x256.Idx → EReal) (v46 : S16x128.Idx → EReal) (r : Fin 16) (c : Fin 128) :
    k0_pay2 (F := Ideal) v35 v46 (ix2 r c)
      = v46 (ix2 r c) + ∑ n : Fin 128, v35 (ix2 (row r n) ⟨128 + c.val, by have := c.isLt; omega⟩) := by
  unfold k0_pay2
  rw [shapeCast_self, addf_apply]
  erw [sum_tok128]
  simp only [unflatten_apply]
  refine congrArg (v46 (ix2 r c) + ·) (Finset.sum_congr rfl fun n _ => ?_)
  exact slice2_axis1_apply 128 v35 _ (row r n) c ⟨128 + c.val, by have := c.isLt; omega⟩ rfl

/-- Accumulator 2 after a chunk: what it held plus the sum over the chunk's tokens of the weighted rows. -/
theorem acc2_apply (v20 : S16x128x48.Idx → EReal) (v52 : S16x48.Idx → EReal) (r : Fin 16) (d : Fin 48) :
    k0_pay3 (F := Ideal) v20 v52 (ix2 r d) = v52 (ix2 r d) + ∑ n : Fin 128, v20 (ix3 r n d) := by
  unfold k0_pay3
  rw [shapeCast_self, addf_apply]
  erw [sum_tok48]

/-- Accumulator 3 after a chunk: what it held plus the sum over the chunk's tokens of the temporal rows. -/
theorem acc3_apply (v5 : S16x128x48.Idx → EReal) (v58 : S16x48.Idx → EReal) (r : Fin 16) (d : Fin 48) :
    k0_pay4 (F := Ideal) v5 v58 (ix2 r d) = v58 (ix2 r d) + ∑ n : Fin 128, v5 (ix3 r n d) := by
  unfold k0_pay4
  rw [shapeCast_self, addf_apply]
  erw [sum_tok48]

/-- The first 128 hidden columns are columns 0 … 127 of the packed product. -/
theorem left_cols_apply (X0 X1 X2 : S16x128x48.Idx → EReal) (X3 : S128x256.Idx → EReal) (X4 : S256.Idx → EReal)
    (p : Fin 2048) (c : Fin 128) :
    k0_pay12 (F := Ideal) X0 X1 X2 X3 X4 (ix2 p c)
      = k0_pay11 (F := Ideal) X0 X1 X2 X3 X4 (ix2 p ⟨c.val, by have := c.isLt; omega⟩) := by
  unfold k0_pay12
  exact slice2_axis1_apply 0 _ _ p c ⟨c.val, by have := c.isLt; omega⟩ (Nat.zero_add _).symm

/-- The zero blocks the first chunk stores. -/
theorem zero128_apply (j : S16x128.Idx) : k0_pay6 (F := Ideal) j = 0 ∧ k0_pay7 (F := Ideal) j = 0 := by
  unfold k0_pay6 k0_pay7
  simp only [shapeCast_self, broadcast_apply]
  exact ⟨Ideal.ofBits_zero_f32, Ideal.ofBits_zero_f32⟩

theorem zero48_apply (j : S16x48.Idx) : k0_pay8 (F := Ideal) j = 0 ∧ k0_pay9 (F := Ideal) j = 0 := by
  unfold k0_pay8 k0_pay9
  simp only [shapeCast_self, broadcast_apply]
  exact ⟨Ideal.ofBits_zero_f32, Ideal.ofBits_zero_f32⟩

/-! ## The packed matrix product -/

theorem lhs_row (i : S2048x256.Idx) (q : dot_S2048x128_S128x256_S2048x256_1_0_0_1_n_n.contr.Idx) : (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_lane (i : S2048x256.Idx) (q : dot_S2048x128_S128x256_S2048x256_1_0_0_1_n_n.contr.Idx) : (dot_S2048x128_S128x256_S2048x256_1_0_0_1_n_n.lhsIdx i q 1).val = (q ⟨0, by decide⟩).val :=
  dot_S2048x128_S128x256_S2048x256_1_0_0_1_n_n.lhsIdx_val_of_single rfl i q
theorem rhs_lane (i : S2048x256.Idx) (q : dot_S2048x128_S128x256_S2048x256_1_0_0_1_n_n.contr.Idx) : (dot_S2048x128_S128x256_S2048x256_1_0_0_1_n_n.rhsIdx i q 0).val = (q ⟨0, by decide⟩).val :=
  dot_S2048x128_S128x256_S2048x256_1_0_0_1_n_n.rhsIdx_val_of_single rfl i q
theorem rhs_col (i : S2048x256.Idx) (q : dot_S2048x128_S128x256_S2048x256_1_0_0_1_n_n.contr.Idx) : (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The body's matrix product into a zero accumulator, at (p, q): the sum over the 128 packed lanes. -/
theorem packed_matmul_apply (Lh : FVec Ideal S2048x128 .bf16) (Rh : FVec Ideal S128x256 .bf16) (p : Fin 2048) (q : Fin 256) :
    matmul dot_S2048x128_S128x256_S2048x256_1_0_0_1_n_n none Lh Rh (constant S2048x256 .f32 0x00000000#32) (ix2 p q)
      = ∑ k : Fin 128, Lh (ix2 p k) * Rh (ix2 k q) := by
  refine (Ideal.matmul_constant_zero_apply dot_S2048x128_S128x256_S2048x256_1_0_0_1_n_n none Lh Rh (ix2 p q)).trans ?_
  rw [← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 p q) ((ValueIdx.contrEquiv1 dot_S2048x128_S128x256_S2048x256_1_0_0_1_n_n 128 rfl rfl).symm k) = ix2 p k := funext fun a => Fin.ext (by
    match a with
    | ⟨0, _⟩ => exact lhs_row _ _
    | ⟨1, _⟩ => exact (lhs_lane _ _).trans hk)
  have er : dot_S2048x128_S128x256_S2048x256_1_0_0_1_n_n.rhsIdx (ix2 p q) ((ValueIdx.contrEquiv1 dot_S2048x128_S128x256_S2048x256_1_0_0_1_n_n 128 rfl rfl).symm k) = ix2 k q := funext fun a => Fin.ext (by
    match a with
    | ⟨0, _⟩ => exact (rhs_lane _ _).trans hk
    | ⟨1, _⟩ => exact rhs_col _ _)
  rw [el, er]

/-- The 128-wide rows the body multiplies: the weighted row, 16 zeros, the temporal row, 16 zeros. -/
def packedRows (X0 X1 X2 : S16x128x48.Idx → EReal) : S2048x128.Idx → EReal :=
  concatenate S2048x128 1 [⟨S2048x48, shapeCast S2048x48 (k0_pay10 (F := Ideal) X0 X1) shapeCasts_S16x128x48_S2048x48⟩,
    ⟨S2048x16, broadcast S2048x16 (Scalar.ofBits (F := Ideal) .f32 0x00000000#32)⟩,
    ⟨S2048x48, shapeCast S2048x48 X2 shapeCasts_S16x128x48_S2048x48⟩,
    ⟨S2048x16, broadcast S2048x16 (Scalar.ofBits (F := Ideal) .f32 0x00000000#32)⟩] concatenates_S2048x48_S2048x16_S2048x48_S2048x16_S2048x128_d1

/-- The hidden block at (p, q): `tanh` of the packed row times column `q` of the packed weight, plus the bias. -/
theorem hidden_apply (X0 X1 X2 : S16x128x48.Idx → EReal) (X3 : S128x256.Idx → EReal) (X4 : S256.Idx → EReal)
    (p : Fin 2048) (q : Fin 256) :
    k0_pay11 (F := Ideal) X0 X1 X2 X3 X4 (ix2 p q)
      = Ideal.tanh ((∑ k : Fin 128, packedRows X0 X1 X2 (ix2 p k) * X3 (ix2 k q)) + X4 (ix1 q)) := by
  unfold k0_pay11
  simp only [Idealize.ShloMosaic.tanh, addf_apply]
  rw [broadcastTo_1b_ab_apply, shapeCast_a_1a_apply, shapeCast_self]
  erw [packed_matmul_apply]
  simp only [truncf_apply, shapeCast_self]
  rfl

/-! ## The four lane ranges of a packed row -/

section Lanes
variable {α : Type} (a b : S2048x48.Idx → α) (z z' : S2048x16.Idx → α)
  (h : Shape.Concatenates [S2048x48, S2048x16, S2048x48, S2048x16] S2048x128 1) (p : Fin 2048)

/-- Lanes 0 … 47 of the packed row are the first piece. -/
theorem lanes_first (k : Fin 48) :
    concatenate S2048x128 1 [⟨S2048x48, a⟩, ⟨S2048x16, z⟩, ⟨S2048x48, b⟩, ⟨S2048x16, z'⟩] h
      (ix2 p ⟨k.val, by have := k.isLt; omega⟩) = a (ix2 p k) :=
  concatenate_apply_piece (t := S2048x128) 1 [⟨S2048x48, a⟩, ⟨S2048x16, z⟩, ⟨S2048x48, b⟩, ⟨S2048x16, z'⟩] h _ 0 (by simp) S2048x48 a rfl rfl 0 rfl (ix2 p k)
    (fun c hc => by
      match c with
      | ⟨0, _⟩ => rfl
      | ⟨1, _⟩ => exact absurd rfl hc)
    (Nat.zero_add _)

/-- Lanes 48 … 63 are the second piece. -/
theorem lanes_gap1 (k : Fin 16) :
    concatenate S2048x128 1 [⟨S2048x48, a⟩, ⟨S2048x16, z⟩, ⟨S2048x48, b⟩, ⟨S2048x16, z'⟩] h
      (ix2 p ⟨48 + k.val, by have := k.isLt; omega⟩) = z (ix2 p k) :=
  concatenate_apply_piece (t := S2048x128) 1 [⟨S2048x48, a⟩, ⟨S2048x16, z⟩, ⟨S2048x48, b⟩, ⟨S2048x16, z'⟩] h _ 1 (by simp) S2048x16 z rfl rfl 48 rfl (ix2 p k)
    (fun c hc => by
      match c with
      | ⟨0, _⟩ => rfl
      | ⟨1, _⟩ => exact absurd rfl hc)
    rfl

/-- Lanes 64 … 111 are the third piece. -/
theorem lanes_second (k : Fin 48) :
    concatenate S2048x128 1 [⟨S2048x48, a⟩, ⟨S2048x16, z⟩, ⟨S2048x48, b⟩, ⟨S2048x16, z'⟩] h
      (ix2 p ⟨64 + k.val, by have := k.isLt; omega⟩) = b (ix2 p k) :=
  concatenate_apply_piece (t := S2048x128) 1 [⟨S2048x48, a⟩, ⟨S2048x16, z⟩, ⟨S2048x48, b⟩, ⟨S2048x16, z'⟩] h _ 2 (by simp) S2048x48 b rfl rfl 64 rfl (ix2 p k)
    (fun c hc => by
      match c with
      | ⟨0, _⟩ => rfl
      | ⟨1, _⟩ => exact absurd rfl hc)
    rfl

/-- Lanes 112 … 127 are the fourth piece. -/
theorem lanes_gap2 (k : Fin 16) :
    concatenate S2048x128 1 [⟨S2048x48, a⟩, ⟨S2048x16, z⟩, ⟨S2048x48, b⟩, ⟨S2048x16, z'⟩] h
      (ix2 p ⟨112 + k.val, by have := k.isLt; omega⟩) = z' (ix2 p k) :=
  concatenate_apply_piece (t := S2048x128) 1 [⟨S2048x48, a⟩, ⟨S2048x16, z⟩, ⟨S2048x48, b⟩, ⟨S2048x16, z'⟩] h _ 3 (by simp) S2048x16 z' rfl rfl 112 rfl (ix2 p k)
    (fun c hc => by
      match c with
      | ⟨0, _⟩ => rfl
      | ⟨1, _⟩ => exact absurd rfl hc)
    rfl

end Lanes

/-- A sum over the 128 packed lanes, split at the four ranges. -/
theorem sum_lanes {M : Type} [AddCommMonoid M] (f : Fin 128 → M) :
    ∑ k, f k = (∑ k : Fin 48, f ⟨k.val, by have := k.isLt; omega⟩) + (∑ k : Fin 16, f ⟨48 + k.val, by have := k.isLt; omega⟩)
      + (∑ k : Fin 48, f ⟨64 + k.val, by have := k.isLt; omega⟩) + (∑ k : Fin 16, f ⟨112 + k.val, by have := k.isLt; omega⟩) := by
  have e1 := Fin.sum_univ_add (a := 64) (b := 64) f
  have e2 := Fin.sum_univ_add (a := 48) (b := 16) (fun i : Fin (48 + 16) => f (Fin.castAdd 64 i))
  have e3 := Fin.sum_univ_add (a := 48) (b := 16) (fun i : Fin (48 + 16) => f (Fin.natAdd 64 i))
  rw [e1, e2, e3, ← add_assoc]
  rfl

/-- The packed row of token (r, n): the weighted row on lanes 0 … 47, the temporal row on lanes 64 … 111, zero elsewhere. -/
theorem packedRows_first (X0 X1 X2 : S16x128x48.Idx → EReal) (r : Fin 16) (n : Fin 128) (k : Fin 48) :
    packedRows X0 X1 X2 (ix2 (row r n) ⟨k.val, by have := k.isLt; omega⟩) = k0_pay10 (F := Ideal) X0 X1 (ix3 r n k) :=
  (lanes_first _ _ _ _ _ (row r n) k).trans (flatten_apply _ _ r n k)
theorem packedRows_second (X0 X1 X2 : S16x128x48.Idx → EReal) (r : Fin 16) (n : Fin 128) (k : Fin 48) :
    packedRows X0 X1 X2 (ix2 (row r n) ⟨64 + k.val, by have := k.isLt; omega⟩) = X2 (ix3 r n k) :=
  (lanes_second _ _ _ _ _ (row r n) k).trans (flatten_apply _ _ r n k)
theorem packedRows_gap1 (X0 X1 X2 : S16x128x48.Idx → EReal) (p : Fin 2048) (k : Fin 16) :
    packedRows X0 X1 X2 (ix2 p ⟨48 + k.val, by have := k.isLt; omega⟩) = 0 :=
  (lanes_gap1 _ _ _ _ _ p k).trans Ideal.ofBits_zero_f32
theorem packedRows_gap2 (X0 X1 X2 : S16x128x48.Idx → EReal) (p : Fin 2048) (k : Fin 16) :
    packedRows X0 X1 X2 (ix2 p ⟨112 + k.val, by have := k.isLt; omega⟩) = 0 :=
  (lanes_gap2 _ _ _ _ _ p k).trans Ideal.ofBits_zero_f32

/-! ## The epilogue -/

/-- A [16] vector given a trailing unit axis reads, at (r, 0), the vector at r. -/
theorem col_of_vec {α : Type} (v : S16.Idx → α) (h : S16.ShapeCasts S16x1) (r : Fin 16) (u : Fin 1) :
    shapeCast S16x1 v h (ix2 r u) = v (ix1 r) :=
  shapeCast_apply v h _ _ (by
    have hu : u.val = 0 := by omega
    rw [Shape.rowMajor_val_one, Shape.rowMajor_val_two]
    show r.val = r.val * 1 + u.val
    omega)

/-- A [16, 1] column broadcast along 48 features reads, at (r, d), the column at (r, 0). -/
theorem bcast_col48 {α : Type} (v : S16x1.Idx → α) (h : S16x1.Broadcasts S16x48) (r : Fin 16) (d : Fin 48) :
    broadcastTo S16x48 v h (ix2 r d) = v (ix2 r (0 : Fin 1)) :=
  broadcastTo_apply v h (ix2 r d) (ix2 r (0 : Fin 1)) fun a => by
    match a with
    | ⟨0, _⟩ => rfl
    | ⟨1, _⟩ => rfl

theorem lift_unit (h : S16x128.Reduces [1] S16) (r : Fin 16) (c : Fin 128) : h.lift (ix1 r) c = ix2 r c := by
  funext a
  match a with
  | ⟨0, _⟩ => rfl
  | ⟨1, _⟩ => rfl

/-- A sum over the 128 hidden units of a [16, 128] block, at row r. -/
theorem sum_units (v : FVec Ideal S16x128 .f32) (h : S16x128.Reduces [1] S16) (hφ : FKind.Formats FTy.f32)
    (hacc : (0x00000000#32 : BitVec FTy.f32.bits) = FKind.add.neutral FTy.f32 hφ) (r : Fin 16) :
    multiReduction .add [1] S16 v 0x00000000#32 h hφ hacc (ix1 r) = ∑ c : Fin 128, v (ix2 r c) :=
  (Ideal.multiReduction_add_single v 0x00000000#32 h hφ hacc (ix1 r)).trans
    (Finset.sum_congr rfl fun c _ => congrArg v (lift_unit h r c))

/-- The output block at (r, d), from the finished accumulators `a0 … a3` and the projection row `w2`: each branch's score
    is its hidden sum times `1/512` projected on `w2`; the two scores' softmax weights multiply the two branches'
    feature sums times `1/512`. -/
theorem epilogue_apply (a0 a1 : S16x128.Idx → EReal) (w2 : S1x128.Idx → EReal) (a2 a3 : S16x48.Idx → EReal)
    (r : Fin 16) (d : Fin 48) :
    k0_pay5 (F := Ideal) a0 a1 w2 a2 a3 (ix2 r d)
      = soft0 (∑ c : Fin 128, (a0 (ix2 r c) * inv512) * w2 (ix2 (0 : Fin 1) c))
            (∑ c : Fin 128, (a1 (ix2 r c) * inv512) * w2 (ix2 (0 : Fin 1) c)) * (a2 (ix2 r d) * inv512)
        + soft1 (∑ c : Fin 128, (a0 (ix2 r c) * inv512) * w2 (ix2 (0 : Fin 1) c))
            (∑ c : Fin 128, (a1 (ix2 r c) * inv512) * w2 (ix2 (0 : Fin 1) c)) * (a3 (ix2 r d) * inv512) := by
  unfold k0_pay5
  simp only [addf_apply, mulf_apply, bcast_col48, divf_apply, Idealize.ShloMosaic.exp, subf_apply, maximumf_apply,
    col_of_vec, broadcast_apply]
  erw [sum_units, sum_units]
  simp only [mulf_apply, broadcast_apply, broadcastTo_1b_ab_apply, shapeCast_self]
  rfl

end Cert.KernelIdeal.Payload

end
-- ==== Proof.PackedWeight.lean ====
/-
  The packed 128×256 weight that @main builds from a 48×128 matrix `w`, read at an index.

  @main starts from a 128×256 matrix of zeros and overwrites two blocks of it with `w`, each by one `scatter` whose
  body returns the update: the first at start index `(0, 0)` (rows 0..47, columns 0..127), the second at start index
  `(64, 128)` (rows 64..111, columns 128..255). A `scatter` is a left fold, over the update indices in row-major
  order, of single-element overwrites. So the file goes in four steps:

    1. a fold of single-point writes read at one point (`foldl_write_apply`): the last write to the point wins;
    2. from it, a `scatter` that overwrites, read at one index (`scatter_set_apply`);
    3. for this program's dimension numbers, where an update index lands: at the start index plus the update index
       (`resultIdx_eq`), hence the scatter read inside its window (`scatter_in`) and outside it (`scatter_out`);
    4. the two scatters composed (`packed_at_left`, `packed_at_right`, `packed_at_zero`, for every float instance),
       and the three statements at the ideal values (`packed_left`, `packed_right`, `packed_zero`).
-/
import proofs.«128080_j89644557402222_2_alg».proof.KernelIdeal
import Idealize.ShloMosaic.Lib.ValueIdx
import Idealize.ShloMosaic.Lib.Pipeline.Value
import Idealize.ShloMosaic.PureOps.Ideal.Laws

noncomputable section

namespace Cert.KernelIdeal.Packed

open Cert.KernelIdeal Idealize.ShloMosaic Idealize.ShloMosaic.ValueIdx

variable [Facts]
open Facts₀ Facts

/-! ## A fold of single-point writes, read at one point -/

/-- A left fold of single-point writes read at the point `i`: when every write that lands on `i` writes `c`, and
    either some write lands on `i` or the starting function already has `c` there, the result has `c` at `i`
    (the last write to `i` wins, and all of them write `c`). The step is described by what it does at the written
    point (`hit`), away from it (`miss`), and when nothing is written (`skip`). -/
theorem foldl_write_apply {β ι α : Type} (g : β → Option ι) (v : β → α) (step : (ι → α) → β → ι → α)
    (hit : ∀ r n i0, g n = some i0 → step r n i0 = v n)
    (miss : ∀ r n i0 i', g n = some i0 → i' ≠ i0 → step r n i' = r i')
    (skip : ∀ r n, g n = none → step r n = r) (i : ι) (c : α) :
    ∀ (L : List β) (x : ι → α), (∀ b ∈ L, g b = some i → v b = c) → ((∃ b ∈ L, g b = some i) ∨ x i = c) →
      L.foldl step x i = c := by
  intro L
  induction L with
  | nil =>
    intro x _ h0
    rcases h0 with ⟨b, hb, _⟩ | h0
    · cases hb
    · exact h0
  | cons b L ih =>
    intro x hw h0
    rw [List.foldl_cons]
    apply ih (step x b) (fun b' hb' => hw b' (List.mem_cons_of_mem _ hb'))
    by_cases hb : g b = some i
    · -- the head writes at `i`: it writes `c`
      right
      rw [hit x b i hb]
      exact hw b List.mem_cons_self hb
    · -- the head does not write at `i`: the value there is unchanged, and a later write to `i` is in the tail
      have hx : step x b i = x i := by
        cases hg : g b with
        | none => rw [skip x b hg]
        | some i0 =>
          apply miss x b i0 i hg
          intro e; apply hb; rw [hg, e]
      rcases h0 with ⟨b', hb', hg'⟩ | h0
      · left
        rcases List.mem_cons.1 hb' with e | hb'
        · subst e; exact absurd hg' hb
        · exact ⟨b', hb', hg'⟩
      · right; rw [hx]; exact h0

/-! ## A scatter that overwrites, read at one index -/

/-- A `scatter` whose body returns the update (`.at[…].set`), read at the operand index `i`: when every update index
    that lands on `i` carries the value `c`, and either some update index lands on `i` or the operand has `c` there,
    the result has `c` at `i`. -/
theorem scatter_set_apply {s si u : Shape} {w : Nat} {α : Type} (d : ScatterDims s si u) (x : s.Idx → α) (idx : IVec si w)
    (upd : u.Idx → α) (i : s.Idx) (c : α)
    (hw : ∀ j : u.Idx, d.resultIdx? j idx = some i → upd j = c)
    (h0 : (∃ j : u.Idx, d.resultIdx? j idx = some i) ∨ x i = c) :
    Host.scatter d (fun _ b => b) x idx upd i = c := by
  unfold Host.scatter
  apply foldl_write_apply (fun n : Fin u.numel => d.resultIdx? (u.rowMajor.symm n) idx) (fun n => upd (u.rowMajor.symm n))
  · intro r n i0 h; rw [h]; exact if_pos rfl
  · intro r n i0 i' h hne; rw [h]; exact if_neg hne
  · intro r n h; rw [h]
  · intro n _ h; exact hw _ h
  · rcases h0 with ⟨j, hj⟩ | h0
    · left
      exact ⟨u.rowMajor j, List.mem_finRange _, by rw [Equiv.symm_apply_apply]; exact hj⟩
    · right; exact h0

/-! ## Rank-2 indices by coordinates -/

/-- Two rank-2 indices with the same two coordinates are equal. -/
theorem idx2_ext {n0 n1 : Nat} (i i' : (⟨2, ![n0, n1]⟩ : Shape).Idx) (h0 : (i 0).val = (i' 0).val)
    (h1 : (i 1).val = (i' 1).val) : i = i' := by
  funext a
  match a with
  | ⟨0, _⟩ => exact Fin.ext h0
  | ⟨1, _⟩ => exact Fin.ext h1

/-! ## This program's scatter record: where an update index lands -/

/-- The record of this program's two scatters: a 48×128 window written at a start index read off a 2-element index array. -/
local notation "D" => scatter_S128x256_S2_S48x128_01_n_01_0

/-- Component `a` of the start index is read at position `a` of the index array, whatever the update index
    (the index array's one axis is the index vector's). -/
theorem siIdx_eq (j : S48x128.Idx) (a : Fin 2) (h : a.val < (D).scatterDimsToOperandDims.length) :
    (D).siIdx j ⟨a.val, h⟩ = ix1 a := by
  funext b
  match b with
  | ⟨0, _⟩ => rfl

/-- The row axis is named by the map `[0, 1]`. -/
theorem mem_sdto_row : (0 : Fin 2) ∈ (D).scatterDimsToOperandDims := by
  show (0 : Fin 2) ∈ [0, 1]
  decide
/-- The column axis is named by the map `[0, 1]`. -/
theorem mem_sdto_col : (1 : Fin 2) ∈ (D).scatterDimsToOperandDims := by
  show (1 : Fin 2) ∈ [0, 1]
  decide

/-- The window's first row is component 0 of the index array, read signed. -/
theorem start_row (idx : IVec S2 32) (j : S48x128.Idx) : (D).start j idx 0 = (idx (ix1 0)).toInt := by
  unfold ScatterDims.start
  rw [dif_pos mem_sdto_row]
  exact congrArg (fun k => (idx k).toInt) (siIdx_eq j 0 _)
/-- The window's first column is component 1 of the index array, read signed. -/
theorem start_col (idx : IVec S2 32) (j : S48x128.Idx) : (D).start j idx 1 = (idx (ix1 1)).toInt := by
  unfold ScatterDims.start
  rw [dif_pos mem_sdto_col]
  exact congrArg (fun k => (idx k).toInt) (siIdx_eq j 1 _)

/-- The window coordinate on the row axis is the update index's row (no axis is inserted, and the window axes are the
    update's two axes in order). -/
theorem window_row (j : S48x128.Idx) : (D).window j 0 = (j 0).val := rfl
/-- The window coordinate on the column axis is the update index's column. -/
theorem window_col (j : S48x128.Idx) : (D).window j 1 = (j 1).val := rfl

/-- Where update index `j` lands when the index array holds `(r0, c0)`, both nonnegative and leaving the 48×128 window
    inside the 128×256 operand: at row `r0 + j 0`, column `c0 + j 1`; no update is dropped. -/
theorem resultIdx_eq (idx : IVec S2 32) (r0 c0 : Nat) (h0 : (idx (ix1 0)).toInt = r0) (h1 : (idx (ix1 1)).toInt = c0)
    (hr : r0 + 48 ≤ 128) (hc : c0 + 128 ≤ 256) (j : S48x128.Idx) :
    (D).resultIdx? j idx = some (ix2 ⟨r0 + (j 0).val, by have := idx2_lt0 j; omega⟩ ⟨c0 + (j 1).val, by have := idx2_lt1 j; omega⟩) := by
  have hj0 := idx2_lt0 j
  have hj1 := idx2_lt1 j
  unfold ScatterDims.resultIdx?
  have hb : ∀ a : Fin 2, 0 ≤ (D).start j idx a + (D).window j a ∧ (D).start j idx a + (D).window j a < S128x256.size a := by
    refine Fin.forall_fin_two.2 ⟨?_, ?_⟩
    · rw [start_row, window_row, h0]
      show 0 ≤ (r0 : Int) + ((j 0).val : Nat) ∧ (r0 : Int) + ((j 0).val : Nat) < (128 : Nat)
      omega
    · rw [start_col, window_col, h1]
      show 0 ≤ (c0 : Int) + ((j 1).val : Nat) ∧ (c0 : Int) + ((j 1).val : Nat) < (256 : Nat)
      omega
  rw [dif_pos hb]
  refine congrArg some (idx2_ext _ _ ?_ ?_)
  · show ((D).start j idx 0 + (D).window j 0).toNat = r0 + (j 0).val
    rw [start_row, window_row, h0]; omega
  · show ((D).start j idx 1 + (D).window j 1).toNat = c0 + (j 1).val
    rw [start_col, window_col, h1]; omega

/-! ## One scatter of this record, read inside and outside its window -/

/-- Inside the window: the scatter at start `(r0, c0)`, read at row `r0 + j 0` and column `c0 + j 1`, is the update at
    `j` (update indices land on distinct places, so the one write that reaches this place is `j`'s). -/
theorem scatter_in {α : Type} (x : S128x256.Idx → α) (idx : IVec S2 32) (upd : S48x128.Idx → α) (r0 c0 : Nat)
    (h0 : (idx (ix1 0)).toInt = r0) (h1 : (idx (ix1 1)).toInt = c0) (hr : r0 + 48 ≤ 128) (hc : c0 + 128 ≤ 256)
    (i : S128x256.Idx) (j : S48x128.Idx) (hi0 : (i 0).val = r0 + (j 0).val) (hi1 : (i 1).val = c0 + (j 1).val) :
    Host.scatter D (fun _ b => b) x idx upd i = upd j := by
  apply scatter_set_apply
  · -- an update index that lands here has `j`'s coordinates
    intro j' hj'
    rw [resultIdx_eq idx r0 c0 h0 h1 hr hc j'] at hj'
    have e := Option.some.inj hj'
    have e0 : r0 + (j' 0).val = (i 0).val := congrArg (fun k : S128x256.Idx => (k 0).val) e
    have e1 : c0 + (j' 1).val = (i 1).val := congrArg (fun k : S128x256.Idx => (k 1).val) e
    have ej : j' = j := idx2_ext _ _ (by omega) (by omega)
    rw [ej]
  · -- and `j` itself lands here
    left
    refine ⟨j, ?_⟩
    rw [resultIdx_eq idx r0 c0 h0 h1 hr hc j]
    exact congrArg some (idx2_ext _ _ hi0.symm hi1.symm)

/-- Outside the window: read at any other place, the scatter leaves the operand's element (no update index lands there). -/
theorem scatter_out {α : Type} (x : S128x256.Idx → α) (idx : IVec S2 32) (upd : S48x128.Idx → α) (r0 c0 : Nat)
    (h0 : (idx (ix1 0)).toInt = r0) (h1 : (idx (ix1 1)).toInt = c0) (hr : r0 + 48 ≤ 128) (hc : c0 + 128 ≤ 256)
    (i : S128x256.Idx)
    (hout : ¬(r0 ≤ (i 0).val ∧ (i 0).val < r0 + 48 ∧ c0 ≤ (i 1).val ∧ (i 1).val < c0 + 128)) :
    Host.scatter D (fun _ b => b) x idx upd i = x i := by
  apply scatter_set_apply
  · intro j' hj'
    exfalso
    rw [resultIdx_eq idx r0 c0 h0 h1 hr hc j'] at hj'
    have e := Option.some.inj hj'
    have e0 : r0 + (j' 0).val = (i 0).val := congrArg (fun k : S128x256.Idx => (k 0).val) e
    have e1 : c0 + (j' 1).val = (i 1).val := congrArg (fun k : S128x256.Idx => (k 1).val) e
    have hj0 := idx2_lt0 j'
    have hj1 := idx2_lt1 j'
    apply hout
    omega
  · right; rfl

/-! ## The index arrays and the zero matrix @main builds -/

/-- The index array `[a, b]`, built as two one-element arrays concatenated, holds `a` at position 0 … -/
theorem idxPair_zero (a b : BitVec 32) :
    (concatenate S2 0 [⟨S1, broadcastInDim S1 ![] bcast_S_S1 (constantI S_ 32 a)⟩, ⟨S1, broadcastInDim S1 ![] bcast_S_S1 (constantI S_ 32 b)⟩]
      concatenates_S1_S1_S2_d0 : IVec S2 32) (ix1 0) = a := rfl
/-- … and `b` at position 1. -/
theorem idxPair_one (a b : BitVec 32) :
    (concatenate S2 0 [⟨S1, broadcastInDim S1 ![] bcast_S_S1 (constantI S_ 32 a)⟩, ⟨S1, broadcastInDim S1 ![] bcast_S_S1 (constantI S_ 32 b)⟩]
      concatenates_S1_S1_S2_d0 : IVec S2 32) (ix1 1) = b := rfl

/-- The broadcast zero constant is the zero word's value at every index. -/
theorem zeros_apply {F : FTy → Type} [FloatOps F] (i : S128x256.Idx) :
    (broadcastInDim S128x256 ![] bcast_S_S128x256 (constant S_ .f32 0x00000000#32) : FVec F S128x256 .f32) i
      = FloatOps.ofBits .f32 0x00000000#32 := rfl

/-! ## The packed weight -/

/-- The packed weight as @main builds it from `w`: into a 128×256 matrix of zeros, `w` written at rows 0..47 and
    columns 0..127, then again at rows 64..111 and columns 128..255. -/
def packed {F : FTy → Type} [FloatOps F] (w : (⟨S48x128, .f32⟩ : BufTy).Contents (Elt F)) :
    (⟨S128x256, .f32⟩ : BufTy).Contents (Elt F) :=
  Host.scatter scatter_S128x256_S2_S48x128_01_n_01_0 (fun _ b => b)
    (Host.scatter scatter_S128x256_S2_S48x128_01_n_01_0 (fun _ b => b)
      (broadcastInDim S128x256 ![] bcast_S_S128x256 (constant S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      w)
    (concatenate S2 0 [⟨S1, broadcastInDim S1 ![] bcast_S_S1 (constantI S_ 32 64#32)⟩, ⟨S1, broadcastInDim S1 ![] bcast_S_S1 (constantI S_ 32 128#32)⟩] concatenates_S1_S1_S2_d0)
    w

section Generic
variable {F : FTy → Type} [FloatOps F]

/-- The upper-left block: at row `j 0` and column `j 1` (below 48 and 128) the packed weight is `w j`. The second
    scatter's window starts at row 64 and does not reach this place; the first scatter's window starts at `(0, 0)`. -/
theorem packed_at_left (w : (⟨S48x128, .f32⟩ : BufTy).Contents (Elt F)) (i : S128x256.Idx) (j : S48x128.Idx)
    (hi0 : (i 0).val = (j 0).val) (hi1 : (i 1).val = (j 1).val) : packed w i = w j := by
  have hj0 := idx2_lt0 j
  unfold packed
  rw [scatter_out _ _ _ 64 128 ((congrArg BitVec.toInt (idxPair_zero _ _)).trans (by decide))
    ((congrArg BitVec.toInt (idxPair_one _ _)).trans (by decide)) (by norm_num) (by norm_num) i (by omega)]
  exact scatter_in _ _ _ 0 0 ((congrArg BitVec.toInt (idxPair_zero _ _)).trans (by decide))
    ((congrArg BitVec.toInt (idxPair_one _ _)).trans (by decide)) (by norm_num) (by norm_num) i j (by omega) (by omega)

/-- The lower-right block: at row `64 + j 0` and column `128 + j 1` the packed weight is `w j`: the second scatter's
    window starts at `(64, 128)`, and the second scatter is the last to write. -/
theorem packed_at_right (w : (⟨S48x128, .f32⟩ : BufTy).Contents (Elt F)) (i : S128x256.Idx) (j : S48x128.Idx)
    (hi0 : (i 0).val = 64 + (j 0).val) (hi1 : (i 1).val = 128 + (j 1).val) : packed w i = w j := by
  unfold packed
  exact scatter_in _ _ _ 64 128 ((congrArg BitVec.toInt (idxPair_zero _ _)).trans (by decide))
    ((congrArg BitVec.toInt (idxPair_one _ _)).trans (by decide)) (by norm_num) (by norm_num) i j hi0 hi1

/-- Everywhere else: outside both windows the packed weight is the zero constant. -/
theorem packed_at_zero (w : (⟨S48x128, .f32⟩ : BufTy).Contents (Elt F)) (i : S128x256.Idx)
    (h1 : ¬((i 0).val < 48 ∧ (i 1).val < 128)) (h2 : ¬(64 ≤ (i 0).val ∧ (i 0).val < 112 ∧ 128 ≤ (i 1).val)) :
    packed w i = FloatOps.ofBits .f32 0x00000000#32 := by
  have hi1 := idx2_lt1 i
  unfold packed
  rw [scatter_out _ _ _ 64 128 ((congrArg BitVec.toInt (idxPair_zero _ _)).trans (by decide))
    ((congrArg BitVec.toInt (idxPair_one _ _)).trans (by decide)) (by norm_num) (by norm_num) i (by omega)]
  rw [scatter_out _ _ _ 0 0 ((congrArg BitVec.toInt (idxPair_zero _ _)).trans (by decide))
    ((congrArg BitVec.toInt (idxPair_one _ _)).trans (by decide)) (by norm_num) (by norm_num) i (by omega)]
  exact zeros_apply i

end Generic

/-! ## The packed weight at the ideal values -/

/-- Rows 0..47, columns 0..127 hold `w`. -/
theorem packed_left (w : S48x128.Idx → EReal) (d : Fin 48) (c : Fin 128) :
    packed (F := Ideal) w (ix2 ⟨d.val, by omega⟩ ⟨c.val, by omega⟩) = w (ix2 d c) :=
  packed_at_left (F := Ideal) w _ (ix2 d c) rfl rfl

/-- Rows 64..111, columns 128..255 hold `w` again. -/
theorem packed_right (w : S48x128.Idx → EReal) (d : Fin 48) (c : Fin 128) :
    packed (F := Ideal) w (ix2 ⟨64 + d.val, by omega⟩ ⟨128 + c.val, by omega⟩) = w (ix2 d c) :=
  packed_at_right (F := Ideal) w _ (ix2 d c) rfl rfl

/-- Every other place holds the extended real `0`. -/
theorem packed_zero (w : S48x128.Idx → EReal) (k : Fin 128) (q : Fin 256)
    (h1 : ¬(k.val < 48 ∧ q.val < 128)) (h2 : ¬(64 ≤ k.val ∧ k.val < 112 ∧ 128 ≤ q.val)) :
    packed (F := Ideal) w (ix2 k q) = 0 := by
  rw [packed_at_zero (F := Ideal) w (ix2 k q) h1 h2]
  exact Ideal.ofBits_zero_f32

end Cert.KernelIdeal.Packed
-- ==== Proof.Hidden.lean ====
/-
  The hidden rows of the two branches, read off the packed matrix product.

  A packed row carries the weighted spatial row on lanes 0 … 47 and the temporal row on lanes 64 … 111; the packed weight
  carries `W1` at rows 0 … 47 × columns 0 … 127 and again at rows 64 … 111 × columns 128 … 255, and zero elsewhere. So the
  product's column `c < 128` is the weighted row times `W1[:, c]` and its column `128 + c` the temporal row times
  `W1[:, c]`: every other lane multiplies a zero on one side or the other, and `0 · x = x · 0 = 0` for every extended real.
-/
import proofs.«128080_j89644557402222_2_alg».proof.Proof.Payload
import proofs.«128080_j89644557402222_2_alg».proof.Proof.PackedWeight

noncomputable section

namespace Cert.KernelIdeal.Payload

open Cert.KernelIdeal Cert.KernelIdeal.Gen Idealize.ShloMosaic Idealize.ShloMosaic.ValueIdx Cert.Pooled Cert.KernelIdeal.Packed

/-- Column `c < 128` of the hidden block at token (r, n): the first branch's hidden unit `c`. -/
theorem hidden_left (X0 X1 X2 : S16x128x48.Idx → EReal) (w : S48x128.Idx → EReal) (X4 : S256.Idx → EReal)
    (r : Fin 16) (n : Fin 128) (c : Fin 128) :
    k0_pay11 (F := Ideal) X0 X1 X2 (packed (F := Ideal) w) X4 (ix2 (row r n) ⟨c.val, by have := c.isLt; omega⟩)
      = Ideal.tanh ((∑ d : Fin 48, k0_pay10 (F := Ideal) X0 X1 (ix3 r n d) * w (ix2 d c))
          + X4 (ix1 ⟨c.val, by have := c.isLt; omega⟩)) := by
  rw [hidden_apply, sum_lanes]
  have hA : (∑ k : Fin 48, packedRows X0 X1 X2 (ix2 (row r n) ⟨k.val, by have := k.isLt; omega⟩)
        * packed (F := Ideal) w (ix2 ⟨k.val, by have := k.isLt; omega⟩ ⟨c.val, by have := c.isLt; omega⟩))
      = ∑ d : Fin 48, k0_pay10 (F := Ideal) X0 X1 (ix3 r n d) * w (ix2 d c) :=
    Finset.sum_congr rfl fun k _ => by rw [packedRows_first, packed_left]
  have hB : (∑ k : Fin 16, packedRows X0 X1 X2 (ix2 (row r n) ⟨48 + k.val, by have := k.isLt; omega⟩)
        * packed (F := Ideal) w (ix2 ⟨48 + k.val, by have := k.isLt; omega⟩ ⟨c.val, by have := c.isLt; omega⟩)) = 0 :=
    Finset.sum_eq_zero fun k _ => by rw [packedRows_gap1, zero_mul]
  have hC : (∑ k : Fin 48, packedRows X0 X1 X2 (ix2 (row r n) ⟨64 + k.val, by have := k.isLt; omega⟩)
        * packed (F := Ideal) w (ix2 ⟨64 + k.val, by have := k.isLt; omega⟩ ⟨c.val, by have := c.isLt; omega⟩)) = 0 :=
    Finset.sum_eq_zero fun k _ => by
      rw [packed_zero w _ _ (fun h => by have h1 : 64 + k.val < 48 := h.1; omega)
        (fun h => by have h3 : 128 ≤ c.val := h.2.2; have := c.isLt; omega), mul_zero]
  have hD : (∑ k : Fin 16, packedRows X0 X1 X2 (ix2 (row r n) ⟨112 + k.val, by have := k.isLt; omega⟩)
        * packed (F := Ideal) w (ix2 ⟨112 + k.val, by have := k.isLt; omega⟩ ⟨c.val, by have := c.isLt; omega⟩)) = 0 :=
    Finset.sum_eq_zero fun k _ => by rw [packedRows_gap2, zero_mul]
  simp only [hA, hB, hC, hD, add_zero]

/-- Column `128 + c` of the hidden block at token (r, n): the second branch's hidden unit `c`. -/
theorem hidden_right (X0 X1 X2 : S16x128x48.Idx → EReal) (w : S48x128.Idx → EReal) (X4 : S256.Idx → EReal)
    (r : Fin 16) (n : Fin 128) (c : Fin 128) :
    k0_pay11 (F := Ideal) X0 X1 X2 (packed (F := Ideal) w) X4 (ix2 (row r n) ⟨128 + c.val, by have := c.isLt; omega⟩)
      = Ideal.tanh ((∑ d : Fin 48, X2 (ix3 r n d) * w (ix2 d c))
          + X4 (ix1 ⟨128 + c.val, by have := c.isLt; omega⟩)) := by
  rw [hidden_apply, sum_lanes]
  have hA : (∑ k : Fin 48, packedRows X0 X1 X2 (ix2 (row r n) ⟨k.val, by have := k.isLt; omega⟩)
        * packed (F := Ideal) w (ix2 ⟨k.val, by have := k.isLt; omega⟩ ⟨128 + c.val, by have := c.isLt; omega⟩)) = 0 :=
    Finset.sum_eq_zero fun k _ => by
      rw [packed_zero w _ _ (fun h => by have h1 : 128 + c.val < 128 := h.2; omega)
        (fun h => by have h3 : 64 ≤ k.val := h.1; have := k.isLt; omega), mul_zero]
  have hB : (∑ k : Fin 16, packedRows X0 X1 X2 (ix2 (row r n) ⟨48 + k.val, by have := k.isLt; omega⟩)
        * packed (F := Ideal) w (ix2 ⟨48 + k.val, by have := k.isLt; omega⟩ ⟨128 + c.val, by have := c.isLt; omega⟩)) = 0 :=
    Finset.sum_eq_zero fun k _ => by rw [packedRows_gap1, zero_mul]
  have hC : (∑ k : Fin 48, packedRows X0 X1 X2 (ix2 (row r n) ⟨64 + k.val, by have := k.isLt; omega⟩)
        * packed (F := Ideal) w (ix2 ⟨64 + k.val, by have := k.isLt; omega⟩ ⟨128 + c.val, by have := c.isLt; omega⟩))
      = ∑ d : Fin 48, X2 (ix3 r n d) * w (ix2 d c) :=
    Finset.sum_congr rfl fun k _ => by rw [packedRows_second, packed_right]
  have hD : (∑ k : Fin 16, packedRows X0 X1 X2 (ix2 (row r n) ⟨112 + k.val, by have := k.isLt; omega⟩)
        * packed (F := Ideal) w (ix2 ⟨112 + k.val, by have := k.isLt; omega⟩ ⟨128 + c.val, by have := c.isLt; omega⟩)) = 0 :=
    Finset.sum_eq_zero fun k _ => by rw [packedRows_gap2, zero_mul]
  simp only [hA, hB, hC, hD, add_zero, zero_add]

end Cert.KernelIdeal.Payload

end
-- ==== Proof.Tile.lean ====
/-
  One batch tile of the kernel, in terms of the whole argument arrays.

  The grid has 64 batch tiles of 16 entries, each walked in 4 chunks of 128 tokens: point `t` works on batch entries
  `16·(t / 4) + r` and tokens `128·(t % 4) + n`. Its three token windows read those rows of the image, spatial and
  temporal arrays; its other three windows are whole arrays the host built before the launch: the packed weight, the bias
  repeated twice, and the projection as a row. Each chunk adds its 128 tokens' contributions to the four accumulators,
  so after a tile's last chunk they hold the sums over all 512 tokens, and the output block is the pooled result of the
  tile's 16 batch entries with every mean taken first.
-/
import proofs.«128080_j89644557402222_2_alg».proof.Proof.Gen.KernelIdeal.Value
import proofs.«128080_j89644557402222_2_alg».proof.Proof.Pieces
import proofs.«128080_j89644557402222_2_alg».proof.Proof.Hidden
import Idealize.ShloMosaic.Lib.StableHlo.Run

set_option maxRecDepth 16384

noncomputable section

namespace Cert.KernelIdeal.Tile

open Cert.KernelIdeal Cert.KernelIdeal.Gen Cert.KernelIdeal.Value Cert.KernelIdeal.Payload Cert.KernelIdeal.Packed Cert.Pooled
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays by coordinates -/

/-- The image, spatial and temporal features, the first layer's weight and bias, and the projection, by coordinates. -/
abbrev img (c : Dev nD) : Tok := fun b n d => m ((c : Thread nD τ).loc main_arg0) (ix3 b n d)
abbrev spa (c : Dev nD) : Tok := fun b n d => m ((c : Thread nD τ).loc main_arg1) (ix3 b n d)
abbrev tmp (c : Dev nD) : Tok := fun b n d => m ((c : Thread nD τ).loc main_arg2) (ix3 b n d)
abbrev w1 (c : Dev nD) : Fin 48 → Fin 128 → EReal := fun d h => m ((c : Thread nD τ).loc main_arg3) (ix2 d h)
abbrev b1 (c : Dev nD) : Fin 128 → EReal := fun h => m ((c : Thread nD τ).loc main_arg4) (ix1 h)
abbrev w2 (c : Dev nD) : Fin 128 → EReal := fun h => m ((c : Thread nD τ).loc main_arg5) (ix2 h (0 : Fin 1))

/-! ## Where a point's windows sit -/

/-- Batch entry `r` of the tile point `t` works on. -/
def tileRow (t : ℕ) (r : Fin 16) : Fin 1024 := ⟨(16 * (t / 4) + r.val) % 1024, Nat.mod_lt _ (by decide)⟩
/-- Token `n` of the chunk point `t` works on. -/
def chunkTok (t : ℕ) (n : Fin 128) : Fin 512 := ⟨(128 * (t % 4) + n.val) % 512, Nat.mod_lt _ (by decide)⟩

theorem idx_img : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx_spa : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx_tmp : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx_wgt : ∀ t : Fin cfg0.N, win0_3.index t 0 = 0 ∧ win0_3.index t 1 = 0 :=
  (by decide +kernel : ∀ t : Fin grid0.N, win0_3.index t 0 = 0 ∧ win0_3.index t 1 = 0)
theorem idx_bias : ∀ t : Fin cfg0.N, win0_4.index t 0 = 0 :=
  (by decide +kernel : ∀ t : Fin grid0.N, win0_4.index t 0 = 0)
theorem idx_proj : ∀ t : Fin cfg0.N, win0_5.index t 0 = 0 ∧ win0_5.index t 1 = 0 :=
  (by decide +kernel : ∀ t : Fin grid0.N, win0_5.index t 0 = 0 ∧ win0_5.index t 1 = 0)
theorem idx_out : ∀ t : Fin cfg0.N, win0_6.index t 0 = t.val / 4 ∧ win0_6.index t 1 = 0 :=
  (by decide +kernel : ∀ t : Fin grid0.N, win0_6.index t 0 = t.val / 4 ∧ win0_6.index t 1 = 0)

/-! ## What the host built before the launch -/

/-- The packed weight is the two block updates of a zero matrix by the first layer's weight. -/
theorem V_packed (c : Dev nD) : (V m c main_v8 : S128x256.Idx → EReal) = packed (F := Ideal) (m ((c : Thread nD τ).loc main_arg3)) := by
  dsimp only [Gen.V, Gen.hostOps0]
  after_results
  rfl

/-- The bias, repeated twice. -/
theorem V_bias2 (c : Dev nD) : (V m c main_v9 : S256.Idx → EReal)
    = concatenate S256 0 [⟨S128, m ((c : Thread nD τ).loc main_arg4)⟩, ⟨S128, m ((c : Thread nD τ).loc main_arg4)⟩] concatenates_S128_S128_S256_d0 := by
  dsimp only [Gen.V, Gen.hostOps0]
  after_results

/-- The projection column, as a row. -/
theorem V_projRow (c : Dev nD) : (V m c main_v10 : S1x128.Idx → EReal)
    = shapeCast S1x128 (m ((c : Thread nD τ).loc main_arg5)) shapeCasts_S128x1_S1x128 := by
  dsimp only [Gen.V, Gen.hostOps0]
  after_results
  rfl

/-! ## What a point's windows hold -/

/-- The image window's block at point `t` holds rows `tileRow t`, tokens `chunkTok t` of the array. -/
theorem blk_img (c : Dev nD) (t : Fin cfg0.N) (r : Fin 16) (n : Fin 128) (d : Fin 48) :
    iblk m c 0 t (ix3 r n d) = m ((c : Thread nD τ).loc main_arg0) (ix3 (tileRow t.val r) (chunkTok t.val n) d) := by
  have hN : t.val < 256 := lt_of_lt_of_eq t.isLt (show cfg0.N = 256 from N_0)
  have hi := idx_img t
  unfold iblk
  rw [View.read_apply]
  show V m c main_arg0 _ = _
  rw [V_main_arg0]
  congr 1
  funext a
  apply Fin.ext
  match a with
  | ⟨0, _⟩ =>
    show win0_0.index t 0 * 16 + 1 * r.val = (16 * (t.val / 4) + r.val) % 1024
    rw [hi.1]; omega
  | ⟨1, _⟩ =>
    show win0_0.index t 1 * 128 + 1 * n.val = (128 * (t.val % 4) + n.val) % 512
    rw [hi.2.1]; omega
  | ⟨2, _⟩ =>
    show win0_0.index t 2 * 48 + 1 * d.val = d.val
    rw [hi.2.2]; omega

/-- The spatial window's block at point `t` holds rows `tileRow t`, tokens `chunkTok t` of the array. -/
theorem blk_spa (c : Dev nD) (t : Fin cfg0.N) (r : Fin 16) (n : Fin 128) (d : Fin 48) :
    iblk m c 1 t (ix3 r n d) = m ((c : Thread nD τ).loc main_arg1) (ix3 (tileRow t.val r) (chunkTok t.val n) d) := by
  have hN : t.val < 256 := lt_of_lt_of_eq t.isLt (show cfg0.N = 256 from N_0)
  have hi := idx_spa t
  unfold iblk
  rw [View.read_apply]
  show V m c main_arg1 _ = _
  rw [V_main_arg1]
  congr 1
  funext a
  apply Fin.ext
  match a with
  | ⟨0, _⟩ =>
    show win0_1.index t 0 * 16 + 1 * r.val = (16 * (t.val / 4) + r.val) % 1024
    rw [hi.1]; omega
  | ⟨1, _⟩ =>
    show win0_1.index t 1 * 128 + 1 * n.val = (128 * (t.val % 4) + n.val) % 512
    rw [hi.2.1]; omega
  | ⟨2, _⟩ =>
    show win0_1.index t 2 * 48 + 1 * d.val = d.val
    rw [hi.2.2]; omega

/-- The temporal window's block at point `t` holds rows `tileRow t`, tokens `chunkTok t` of the array. -/
theorem blk_tmp (c : Dev nD) (t : Fin cfg0.N) (r : Fin 16) (n : Fin 128) (d : Fin 48) :
    iblk m c 2 t (ix3 r n d) = m ((c : Thread nD τ).loc main_arg2) (ix3 (tileRow t.val r) (chunkTok t.val n) d) := by
  have hN : t.val < 256 := lt_of_lt_of_eq t.isLt (show cfg0.N = 256 from N_0)
  have hi := idx_tmp t
  unfold iblk
  rw [View.read_apply]
  show V m c main_arg2 _ = _
  rw [V_main_arg2]
  congr 1
  funext a
  apply Fin.ext
  match a with
  | ⟨0, _⟩ =>
    show win0_2.index t 0 * 16 + 1 * r.val = (16 * (t.val / 4) + r.val) % 1024
    rw [hi.1]; omega
  | ⟨1, _⟩ =>
    show win0_2.index t 1 * 128 + 1 * n.val = (128 * (t.val % 4) + n.val) % 512
    rw [hi.2.1]; omega
  | ⟨2, _⟩ =>
    show win0_2.index t 2 * 48 + 1 * d.val = d.val
    rw [hi.2.2]; omega

/-- The packed weight's window holds the whole packed weight at every point. -/
theorem blk_wgt (c : Dev nD) (t : Fin cfg0.N) :
    (iblk m c 3 t : S128x256.Idx → EReal) = packed (F := Ideal) (m ((c : Thread nD τ).loc main_arg3)) := by
  have hi := idx_wgt t
  funext j
  obtain ⟨k, q, rfl⟩ : ∃ (k : Fin 128) (q : Fin 256), j = ix2 k q := ⟨j 0, j 1, eq_ix2 j⟩
  unfold iblk
  rw [View.read_apply]
  show V m c main_v8 _ = _
  rw [V_packed]
  congr 1
  funext a
  apply Fin.ext
  match a with
  | ⟨0, _⟩ =>
    show win0_3.index t 0 * 128 + 1 * k.val = k.val
    rw [hi.1]; omega
  | ⟨1, _⟩ =>
    show win0_3.index t 1 * 256 + 1 * q.val = q.val
    rw [hi.2]; omega

/-- The bias window holds the bias at lane `c` and again at lane `128 + c`. -/
theorem blk_bias (c : Dev nD) (t : Fin cfg0.N) (q : Fin 256) :
    iblk m c 4 t (ix1 q) = concatenate S256 0 [⟨S128, m ((c : Thread nD τ).loc main_arg4)⟩, ⟨S128, m ((c : Thread nD τ).loc main_arg4)⟩] concatenates_S128_S128_S256_d0 (ix1 q) := by
  have hi := idx_bias t
  unfold iblk
  rw [View.read_apply]
  show V m c main_v9 _ = _
  rw [V_bias2]
  congr 1
  funext a
  apply Fin.ext
  match a with
  | ⟨0, _⟩ =>
    show win0_4.index t 0 * 256 + 1 * q.val = q.val
    rw [hi]; omega

theorem blk_bias_left (c : Dev nD) (t : Fin cfg0.N) (h : Fin 128) :
    iblk m c 4 t (ix1 ⟨h.val, by have := h.isLt; omega⟩) = b1 m c h := by
  rw [blk_bias]
  exact concatenate_pair_apply_left (t := S256) (s₁ := S128) (s₂ := S128) 0 _ _ concatenates_S128_S128_S256_d0 (ix1 (⟨h.val, by have := h.isLt; omega⟩ : Fin 256)) rfl (ix1 h) (fun b => by
    match b with
    | ⟨0, _⟩ => rfl)

theorem blk_bias_right (c : Dev nD) (t : Fin cfg0.N) (h : Fin 128) :
    iblk m c 4 t (ix1 ⟨128 + h.val, by have := h.isLt; omega⟩) = b1 m c h := by
  rw [blk_bias]
  exact concatenate_pair_apply_right (t := S256) (s₁ := S128) (s₂ := S128) 0 _ _ concatenates_S128_S128_S256_d0 (ix1 (⟨128 + h.val, by have := h.isLt; omega⟩ : Fin 256)) rfl rfl (ix1 h) (fun b hb => by
    match b with
    | ⟨0, _⟩ => exact absurd rfl hb) (by show h.val + 128 = 128 + h.val; omega)

/-- The projection window holds the projection column as a row. -/
theorem blk_proj (c : Dev nD) (t : Fin cfg0.N) (h : Fin 128) :
    iblk m c 5 t (ix2 (0 : Fin 1) h) = w2 m c h := by
  have hi := idx_proj t
  unfold iblk
  rw [View.read_apply]
  show V m c main_v10 _ = _
  rw [V_projRow]
  refine shapeCast_apply _ _ _ (ix2 h (0 : Fin 1)) ?_
  rw [Shape.rowMajor_val_two, Shape.rowMajor_val_two]
  show h.val * 1 + 0 = (win0_5.index t 0 * 1 + 1 * 0) * 128 + (win0_5.index t 1 * 128 + 1 * h.val)
  rw [hi.1, hi.2]; omega

/-! ## What a chunk adds, in terms of the whole arrays -/

/-- The weighted block at point `t` is the similarity-weighted spatial features at the point's rows and tokens. -/
theorem blk_weighted (c : Dev nD) (t : Fin cfg0.N) (r : Fin 16) (n : Fin 128) (d : Fin 48) :
    k0_pay10 (F := Ideal) (iblk m c 0 t) (iblk m c 1 t) (ix3 r n d)
      = weighted (img m c) (spa m c) (tileRow t.val r) (chunkTok t.val n) d := by
  rw [weighted_apply]
  simp only [blk_img, blk_spa]
  rfl

/-- The four sums a chunk adds: each branch's hidden rows and feature rows, over the chunk's 128 tokens. -/
def chunkHid0 (c : Dev nD) (t : ℕ) (j : S16x128.Idx) : EReal :=
  ∑ n : Fin 128, hidden (weighted (img m c) (spa m c)) (w1 m c) (b1 m c) (tileRow t (j 0)) (chunkTok t n) (j 1)
def chunkHid1 (c : Dev nD) (t : ℕ) (j : S16x128.Idx) : EReal :=
  ∑ n : Fin 128, hidden (tmp m c) (w1 m c) (b1 m c) (tileRow t (j 0)) (chunkTok t n) (j 1)
def chunkFeat0 (c : Dev nD) (t : ℕ) (j : S16x48.Idx) : EReal :=
  ∑ n : Fin 128, weighted (img m c) (spa m c) (tileRow t (j 0)) (chunkTok t n) (j 1)
def chunkFeat1 (c : Dev nD) (t : ℕ) (j : S16x48.Idx) : EReal :=
  ∑ n : Fin 128, tmp m c (tileRow t (j 0)) (chunkTok t n) (j 1)

/-- One chunk's step of accumulator 0: what it held plus the first branch's hidden rows summed over the chunk. -/
theorem step0 (c : Dev nD) (t : Fin cfg0.N) (acc : S16x128.Idx → EReal) (j : S16x128.Idx) :
    k0_pay1 (F := Ideal) (k0_pay12 (F := Ideal) (iblk m c 0 t) (iblk m c 1 t) (iblk m c 2 t) (iblk m c 3 t) (iblk m c 4 t)) acc j
      = acc j + chunkHid0 m c t.val j := by
  obtain ⟨r, h, rfl⟩ : ∃ (r : Fin 16) (h : Fin 128), j = ix2 r h := ⟨j 0, j 1, eq_ix2 j⟩
  rw [acc0_apply]
  refine congrArg (acc (ix2 r h) + ·) (Finset.sum_congr rfl fun n _ => ?_)
  rw [left_cols_apply, blk_wgt, hidden_left, blk_bias_left]
  simp only [blk_weighted]
  rfl

/-- One chunk's step of accumulator 1: what it held plus the second branch's hidden rows summed over the chunk. -/
theorem step1 (c : Dev nD) (t : Fin cfg0.N) (acc : S16x128.Idx → EReal) (j : S16x128.Idx) :
    k0_pay2 (F := Ideal) (k0_pay11 (F := Ideal) (iblk m c 0 t) (iblk m c 1 t) (iblk m c 2 t) (iblk m c 3 t) (iblk m c 4 t)) acc j
      = acc j + chunkHid1 m c t.val j := by
  obtain ⟨r, h, rfl⟩ : ∃ (r : Fin 16) (h : Fin 128), j = ix2 r h := ⟨j 0, j 1, eq_ix2 j⟩
  rw [acc1_apply]
  refine congrArg (acc (ix2 r h) + ·) (Finset.sum_congr rfl fun n _ => ?_)
  rw [blk_wgt, hidden_right, blk_bias_right]
  simp only [blk_tmp]
  rfl

/-- One chunk's step of accumulator 2: what it held plus the weighted rows summed over the chunk. -/
theorem step2 (c : Dev nD) (t : Fin cfg0.N) (acc : S16x48.Idx → EReal) (j : S16x48.Idx) :
    k0_pay3 (F := Ideal) (k0_pay10 (F := Ideal) (iblk m c 0 t) (iblk m c 1 t)) acc j = acc j + chunkFeat0 m c t.val j := by
  obtain ⟨r, d, rfl⟩ : ∃ (r : Fin 16) (d : Fin 48), j = ix2 r d := ⟨j 0, j 1, eq_ix2 j⟩
  rw [acc2_apply]
  exact congrArg (acc (ix2 r d) + ·) (Finset.sum_congr rfl fun n _ => blk_weighted m c t r n d)

/-- One chunk's step of accumulator 3: what it held plus the temporal rows summed over the chunk. -/
theorem step3 (c : Dev nD) (t : Fin cfg0.N) (acc : S16x48.Idx → EReal) (j : S16x48.Idx) :
    k0_pay4 (F := Ideal) (iblk m c 2 t) acc j = acc j + chunkFeat1 m c t.val j := by
  obtain ⟨r, d, rfl⟩ : ∃ (r : Fin 16) (d : Fin 48), j = ix2 r d := ⟨j 0, j 1, eq_ix2 j⟩
  rw [acc3_apply]
  exact congrArg (acc (ix2 r d) + ·) (Finset.sum_congr rfl fun n _ => blk_tmp m c t r n d)

/-! ## The accumulators after each point -/

/-- At a tile's first chunk accumulator 0 is cleared and then holds the chunk's sum. -/
theorem sc0_first (c : Dev nD) (n : ℕ) (hb : n < cfg0.N) (h0 : n % 4 = 0) (acc : S16x128.Idx → EReal) (j : S16x128.Idx) :
    scAt0_0 m c n hb acc j = 0 + chunkHid0 m c n j := by
  have h1 : ¬n % 4 = 3 := by omega
  unfold scAt0_0
  rw [dif_pos h0, dif_neg h1, Pieces.acc0_A, step0 m c ⟨n, hb⟩, (zero128_apply j).1]

/-- At every later chunk of a tile the accumulator holds what it held plus the chunk's sum. -/
theorem sc0_next (c : Dev nD) (n : ℕ) (hb : n < cfg0.N) (h0 : ¬n % 4 = 0) (acc : S16x128.Idx → EReal) (j : S16x128.Idx) :
    scAt0_0 m c n hb acc j = acc j + chunkHid0 m c n j := by
  unfold scAt0_0
  by_cases h1 : n % 4 = 3
  · rw [dif_neg h0, dif_pos h1, Pieces.acc0_C, step0 m c ⟨n, hb⟩]
  · rw [dif_neg h0, dif_neg h1, Pieces.acc0_B, step0 m c ⟨n, hb⟩]

/-- So after point `t` accumulator 0 holds the sums of the tile's chunks so far. -/
theorem acc0_at (c : Dev nD) (t : Fin cfg0.N) (j : S16x128.Idx) :
    (outsAt0 m c t.val t.isLt).2.1 j
      = 0 + ∑ s ∈ Finset.range (t.val % 4 + 1), chunkHid0 m c (4 * (t.val / 4) + s) j := by
  rw [soutsAt0_0_eq]
  exact Pipeline.accAt_add_apply _ _ (fun _ => (0 : EReal)) (chunkHid0 m c) (4 * (t.val / 4)) 3
    (fun h i => sc0_first m c _ h (by omega) _ i)
    (fun n h acc i h1 h2 => sc0_next m c n h (by omega) acc i)
    (t.val % 4) (by omega) _ j

/-- At a tile's first chunk accumulator 1 is cleared and then holds the chunk's sum. -/
theorem sc1_first (c : Dev nD) (n : ℕ) (hb : n < cfg0.N) (h0 : n % 4 = 0) (acc : S16x128.Idx → EReal) (j : S16x128.Idx) :
    scAt0_1 m c n hb acc j = 0 + chunkHid1 m c n j := by
  have h1 : ¬n % 4 = 3 := by omega
  unfold scAt0_1
  rw [dif_pos h0, dif_neg h1, Pieces.acc1_A, step1 m c ⟨n, hb⟩, (zero128_apply j).2]

/-- At every later chunk of a tile the accumulator holds what it held plus the chunk's sum. -/
theorem sc1_next (c : Dev nD) (n : ℕ) (hb : n < cfg0.N) (h0 : ¬n % 4 = 0) (acc : S16x128.Idx → EReal) (j : S16x128.Idx) :
    scAt0_1 m c n hb acc j = acc j + chunkHid1 m c n j := by
  unfold scAt0_1
  by_cases h1 : n % 4 = 3
  · rw [dif_neg h0, dif_pos h1, Pieces.acc1_C, step1 m c ⟨n, hb⟩]
  · rw [dif_neg h0, dif_neg h1, Pieces.acc1_B, step1 m c ⟨n, hb⟩]

/-- So after point `t` accumulator 1 holds the sums of the tile's chunks so far. -/
theorem acc1_at (c : Dev nD) (t : Fin cfg0.N) (j : S16x128.Idx) :
    (outsAt0 m c t.val t.isLt).2.2.1 j
      = 0 + ∑ s ∈ Finset.range (t.val % 4 + 1), chunkHid1 m c (4 * (t.val / 4) + s) j := by
  rw [soutsAt0_1_eq]
  exact Pipeline.accAt_add_apply _ _ (fun _ => (0 : EReal)) (chunkHid1 m c) (4 * (t.val / 4)) 3
    (fun h i => sc1_first m c _ h (by omega) _ i)
    (fun n h acc i h1 h2 => sc1_next m c n h (by omega) acc i)
    (t.val % 4) (by omega) _ j

/-- At a tile's first chunk accumulator 2 is cleared and then holds the chunk's sum. -/
theorem sc2_first (c : Dev nD) (n : ℕ) (hb : n < cfg0.N) (h0 : n % 4 = 0) (acc : S16x48.Idx → EReal) (j : S16x48.Idx) :
    scAt0_2 m c n hb acc j = 0 + chunkFeat0 m c n j := by
  have h1 : ¬n % 4 = 3 := by omega
  unfold scAt0_2
  rw [dif_pos h0, dif_neg h1, Pieces.acc2_A, step2 m c ⟨n, hb⟩, (zero48_apply j).1]

/-- At every later chunk of a tile the accumulator holds what it held plus the chunk's sum. -/
theorem sc2_next (c : Dev nD) (n : ℕ) (hb : n < cfg0.N) (h0 : ¬n % 4 = 0) (acc : S16x48.Idx → EReal) (j : S16x48.Idx) :
    scAt0_2 m c n hb acc j = acc j + chunkFeat0 m c n j := by
  unfold scAt0_2
  by_cases h1 : n % 4 = 3
  · rw [dif_neg h0, dif_pos h1, Pieces.acc2_C, step2 m c ⟨n, hb⟩]
  · rw [dif_neg h0, dif_neg h1, Pieces.acc2_B, step2 m c ⟨n, hb⟩]

/-- So after point `t` accumulator 2 holds the sums of the tile's chunks so far. -/
theorem acc2_at (c : Dev nD) (t : Fin cfg0.N) (j : S16x48.Idx) :
    (outsAt0 m c t.val t.isLt).2.2.2.1 j
      = 0 + ∑ s ∈ Finset.range (t.val % 4 + 1), chunkFeat0 m c (4 * (t.val / 4) + s) j := by
  rw [soutsAt0_2_eq]
  exact Pipeline.accAt_add_apply _ _ (fun _ => (0 : EReal)) (chunkFeat0 m c) (4 * (t.val / 4)) 3
    (fun h i => sc2_first m c _ h (by omega) _ i)
    (fun n h acc i h1 h2 => sc2_next m c n h (by omega) acc i)
    (t.val % 4) (by omega) _ j

/-- At a tile's first chunk accumulator 3 is cleared and then holds the chunk's sum. -/
theorem sc3_first (c : Dev nD) (n : ℕ) (hb : n < cfg0.N) (h0 : n % 4 = 0) (acc : S16x48.Idx → EReal) (j : S16x48.Idx) :
    scAt0_3 m c n hb acc j = 0 + chunkFeat1 m c n j := by
  have h1 : ¬n % 4 = 3 := by omega
  unfold scAt0_3
  rw [dif_pos h0, dif_neg h1, Pieces.acc3_A, step3 m c ⟨n, hb⟩, (zero48_apply j).2]

/-- At every later chunk of a tile the accumulator holds what it held plus the chunk's sum. -/
theorem sc3_next (c : Dev nD) (n : ℕ) (hb : n < cfg0.N) (h0 : ¬n % 4 = 0) (acc : S16x48.Idx → EReal) (j : S16x48.Idx) :
    scAt0_3 m c n hb acc j = acc j + chunkFeat1 m c n j := by
  unfold scAt0_3
  by_cases h1 : n % 4 = 3
  · rw [dif_neg h0, dif_pos h1, Pieces.acc3_C, step3 m c ⟨n, hb⟩]
  · rw [dif_neg h0, dif_neg h1, Pieces.acc3_B, step3 m c ⟨n, hb⟩]

/-- So after point `t` accumulator 3 holds the sums of the tile's chunks so far. -/
theorem acc3_at (c : Dev nD) (t : Fin cfg0.N) (j : S16x48.Idx) :
    (outsAt0 m c t.val t.isLt).2.2.2.2 j
      = 0 + ∑ s ∈ Finset.range (t.val % 4 + 1), chunkFeat1 m c (4 * (t.val / 4) + s) j := by
  rw [soutsAt0_3_eq]
  exact Pipeline.accAt_add_apply _ _ (fun _ => (0 : EReal)) (chunkFeat1 m c) (4 * (t.val / 4)) 3
    (fun h i => sc3_first m c _ h (by omega) _ i)
    (fun n h acc i h1 h2 => sc3_next m c n h (by omega) acc i)
    (t.val % 4) (by omega) _ j

/-! ## A tile's four chunks are its 512 tokens -/

/-- A sum over 512 tokens, split at the four chunks of 128. -/
theorem sum_quarters {M : Type} [AddCommMonoid M] (g : Fin 512 → M) :
    ∑ k, g k = (∑ n : Fin 128, g ⟨n.val, by have := n.isLt; omega⟩) + (∑ n : Fin 128, g ⟨128 + n.val, by have := n.isLt; omega⟩)
      + (∑ n : Fin 128, g ⟨256 + n.val, by have := n.isLt; omega⟩) + (∑ n : Fin 128, g ⟨384 + n.val, by have := n.isLt; omega⟩) := by
  have e1 := Fin.sum_univ_add (a := 256) (b := 256) g
  have e2 := Fin.sum_univ_add (a := 128) (b := 128) (fun i : Fin (128 + 128) => g (Fin.castAdd 256 i))
  have e3 := Fin.sum_univ_add (a := 128) (b := 128) (fun i : Fin (128 + 128) => g (Fin.natAdd 256 i))
  rw [e1, e2, e3, ← add_assoc]
  rfl

/-- The four chunk sums of tile `q`, at batch entry `r`, add up to the sum over all 512 tokens. -/
theorem sum_tile {M : Type} [AddCommMonoid M] (f : Fin 1024 → Fin 512 → M) (q : ℕ) (hq : q < 64) (r : Fin 16) :
    ∑ s ∈ Finset.range 4, ∑ n : Fin 128, f (tileRow (4 * q + s) r) (chunkTok (4 * q + s) n)
      = ∑ k : Fin 512, f (tileRow (4 * q + 3) r) k := by
  have hr : ∀ s, s < 4 → tileRow (4 * q + s) r = tileRow (4 * q + 3) r := fun s hs => Fin.ext (by
    show (16 * ((4 * q + s) / 4) + r.val) % 1024 = (16 * ((4 * q + 3) / 4) + r.val) % 1024
    omega)
  have hc : ∀ (s : ℕ) (hs : s < 4) (n : Fin 128), chunkTok (4 * q + s) n = ⟨128 * s + n.val, by have := n.isLt; omega⟩ :=
    fun s hs n => Fin.ext (by
      show (128 * ((4 * q + s) % 4) + n.val) % 512 = 128 * s + n.val
      have := n.isLt
      omega)
  rw [sum_quarters, Finset.sum_range_succ, Finset.sum_range_succ, Finset.sum_range_succ, Finset.sum_range_one]
  simp only [hr 0 (by omega), hr 1 (by omega), hr 2 (by omega), hc 0 (by omega), hc 1 (by omega), hc 2 (by omega),
    hc 3 (by omega)]
  rfl

/-! ## The output block at a tile's last chunk -/

/-- The point before point `t`. -/
abbrev prev (t : Fin cfg0.N) : Fin cfg0.N := ⟨t.val - 1, Nat.lt_of_le_of_lt (Nat.sub_le _ _) t.isLt⟩

section Last
variable (c : Dev nD) (t : Fin cfg0.N) (h3 : t.val % 4 = 3)
include h3

theorem total_aux {ι : Type} (M : ℕ → ι → EReal) (j : ι) :
    (0 + ∑ s ∈ Finset.range ((t.val - 1) % 4 + 1), M (4 * ((t.val - 1) / 4) + s) j) + M t.val j
      = ∑ s ∈ Finset.range 4, M (4 * (t.val / 4) + s) j := by
  have e1 : (t.val - 1) % 4 + 1 = 3 := by omega
  have e2 : 4 * ((t.val - 1) / 4) = 4 * (t.val / 4) := by omega
  have e3 : t.val = 4 * (t.val / 4) + 3 := by omega
  rw [e1, e2, zero_add, Finset.sum_range_succ _ 3, ← e3]

/-- After the last chunk accumulator 0 holds the first branch's hidden rows summed over all 512 tokens. -/
theorem total0 (r : Fin 16) (h : Fin 128) :
    k0_pay1 (F := Ideal) (k0_pay12 (F := Ideal) (iblk m c 0 t) (iblk m c 1 t) (iblk m c 2 t) (iblk m c 3 t) (iblk m c 4 t))
        (outsAt0 m c (t.val - 1) (Nat.lt_of_le_of_lt (Nat.sub_le _ _) t.isLt)).2.1 (ix2 r h)
      = ∑ n : Fin 512, hidden (weighted (img m c) (spa m c)) (w1 m c) (b1 m c) (tileRow t.val r) n h := by
  have hN : t.val < 256 := lt_of_lt_of_eq t.isLt (show cfg0.N = 256 from N_0)
  have e3 : t.val = 4 * (t.val / 4) + 3 := by omega
  rw [step0, acc0_at m c (prev t), total_aux t h3 (chunkHid0 m c)]
  have key := sum_tile (fun b n => hidden (weighted (img m c) (spa m c)) (w1 m c) (b1 m c) b n h) (t.val / 4) (by omega) r
  rw [← e3] at key
  exact key

/-- After the last chunk accumulator 1 holds the second branch's hidden rows summed over all 512 tokens. -/
theorem total1 (r : Fin 16) (h : Fin 128) :
    k0_pay2 (F := Ideal) (k0_pay11 (F := Ideal) (iblk m c 0 t) (iblk m c 1 t) (iblk m c 2 t) (iblk m c 3 t) (iblk m c 4 t))
        (outsAt0 m c (t.val - 1) (Nat.lt_of_le_of_lt (Nat.sub_le _ _) t.isLt)).2.2.1 (ix2 r h)
      = ∑ n : Fin 512, hidden (tmp m c) (w1 m c) (b1 m c) (tileRow t.val r) n h := by
  have hN : t.val < 256 := lt_of_lt_of_eq t.isLt (show cfg0.N = 256 from N_0)
  have e3 : t.val = 4 * (t.val / 4) + 3 := by omega
  rw [step1, acc1_at m c (prev t), total_aux t h3 (chunkHid1 m c)]
  have key := sum_tile (fun b n => hidden (tmp m c) (w1 m c) (b1 m c) b n h) (t.val / 4) (by omega) r
  rw [← e3] at key
  exact key

/-- After the last chunk accumulator 2 holds the weighted rows summed over all 512 tokens. -/
theorem total2 (r : Fin 16) (d : Fin 48) :
    k0_pay3 (F := Ideal) (k0_pay10 (F := Ideal) (iblk m c 0 t) (iblk m c 1 t))
        (outsAt0 m c (t.val - 1) (Nat.lt_of_le_of_lt (Nat.sub_le _ _) t.isLt)).2.2.2.1 (ix2 r d)
      = ∑ n : Fin 512, weighted (img m c) (spa m c) (tileRow t.val r) n d := by
  have hN : t.val < 256 := lt_of_lt_of_eq t.isLt (show cfg0.N = 256 from N_0)
  have e3 : t.val = 4 * (t.val / 4) + 3 := by omega
  rw [step2, acc2_at m c (prev t), total_aux t h3 (chunkFeat0 m c)]
  have key := sum_tile (fun b n => weighted (img m c) (spa m c) b n d) (t.val / 4) (by omega) r
  rw [← e3] at key
  exact key

/-- After the last chunk accumulator 3 holds the temporal rows summed over all 512 tokens. -/
theorem total3 (r : Fin 16) (d : Fin 48) :
    k0_pay4 (F := Ideal) (iblk m c 2 t)
        (outsAt0 m c (t.val - 1) (Nat.lt_of_le_of_lt (Nat.sub_le _ _) t.isLt)).2.2.2.2 (ix2 r d)
      = ∑ n : Fin 512, tmp m c (tileRow t.val r) n d := by
  have hN : t.val < 256 := lt_of_lt_of_eq t.isLt (show cfg0.N = 256 from N_0)
  have e3 : t.val = 4 * (t.val / 4) + 3 := by omega
  rw [step3, acc3_at m c (prev t), total_aux t h3 (chunkFeat1 m c)]
  have key := sum_tile (fun b n => tmp m c b n d) (t.val / 4) (by omega) r
  rw [← e3] at key
  exact key

/-- So the output block of a tile's last chunk, at (r, d), is the pooled result of batch entry `tileRow t r`. -/
theorem out_last (r : Fin 16) (d : Fin 48) :
    k0_pay5 (F := Ideal)
        (k0_pay1 (F := Ideal) (k0_pay12 (F := Ideal) (iblk m c 0 t) (iblk m c 1 t) (iblk m c 2 t) (iblk m c 3 t) (iblk m c 4 t))
          (outsAt0 m c (t.val - 1) (Nat.lt_of_le_of_lt (Nat.sub_le _ _) t.isLt)).2.1)
        (k0_pay2 (F := Ideal) (k0_pay11 (F := Ideal) (iblk m c 0 t) (iblk m c 1 t) (iblk m c 2 t) (iblk m c 3 t) (iblk m c 4 t))
          (outsAt0 m c (t.val - 1) (Nat.lt_of_le_of_lt (Nat.sub_le _ _) t.isLt)).2.2.1)
        (iblk m c 5 t)
        (k0_pay3 (F := Ideal) (k0_pay10 (F := Ideal) (iblk m c 0 t) (iblk m c 1 t))
          (outsAt0 m c (t.val - 1) (Nat.lt_of_le_of_lt (Nat.sub_le _ _) t.isLt)).2.2.2.1)
        (k0_pay4 (F := Ideal) (iblk m c 2 t)
          (outsAt0 m c (t.val - 1) (Nat.lt_of_le_of_lt (Nat.sub_le _ _) t.isLt)).2.2.2.2) (ix2 r d)
      = pooledMeanFirst (img m c) (spa m c) (tmp m c) (w1 m c) (b1 m c) (w2 m c) (tileRow t.val r) d := by
  rw [epilogue_apply]
  simp only [total0 m c t h3, total1 m c t h3, total2 m c t h3, total3 m c t h3, blk_proj]
  rfl

end Last

end Cert.KernelIdeal.Tile

end
-- ==== Proof.Result.lean ====
/-
  The result array of the kernel: the 64 batch tiles' last chunks each write back 16 rows of the pooled result, and the
  64 blocks cover the array, so the array ends holding the pooled result of every batch entry.
-/
import proofs.«128080_j89644557402222_2_alg».proof.Proof.Tile

set_option maxRecDepth 16384

noncomputable section

namespace Cert.KernelIdeal.Tile

open Cert.KernelIdeal Cert.KernelIdeal.Gen Cert.KernelIdeal.Value Cert.KernelIdeal.Payload Cert.KernelIdeal.Packed Cert.Pooled
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The pooled result of every batch entry, with every mean taken first: what the result array ends holding. -/
def result (c : Dev nD) : S1024x48.Idx → EReal := fun i =>
  pooledMeanFirst (img m c) (spa m c) (tmp m c) (w1 m c) (b1 m c) (w2 m c) (i 0) (i 1)

/-- What a tile's last chunk writes back is the tile's 16 rows of the pooled result. -/
theorem flushed_eq (c : Dev nD) (t : Fin cfg0.N) (hf : (cfg0.win 6).flush t = true) :
    (dats m 0 c).flushed 6 t = ((cfg0.win 6).blk t).view.read (Elt Ideal) (result m c) := by
  have h3 : t.val % 4 = 3 := (flush0_6 t).mp hf
  have hN : t.val < 256 := lt_of_lt_of_eq t.isLt (show cfg0.N = 256 from N_0)
  have hi := idx_out t
  rw [flushed6_C m c t (by omega) h3, Pieces.out_C]
  funext j
  obtain ⟨r, d, rfl⟩ : ∃ (r : Fin 16) (d : Fin 48), j = ix2 r d := ⟨j 0, j 1, eq_ix2 j⟩
  rw [View.read_apply]
  have hemb : ((cfg0.win 6).blk t).view.emb (ix2 r d) = ix2 (tileRow t.val r) d := funext fun a => Fin.ext (by
    match a with
    | ⟨0, _⟩ =>
      show win0_6.index t 0 * 16 + 1 * r.val = (16 * (t.val / 4) + r.val) % 1024
      rw [hi.1]; omega
    | ⟨1, _⟩ =>
      show win0_6.index t 1 * 48 + 1 * d.val = d.val
      rw [hi.2]; omega)
  rw [hemb]
  exact out_last m c t h3 r d

/-- An index of the result array is in point `t`'s block iff each coordinate is in the block's range on its axis. -/
theorem mem_blk (t : Fin cfg0.N) (i : S1024x48.Idx) :
    i ∈ ((cfg0.win 6).blk t).view.set ↔ ∀ a : Fin 2, win0_6.index t a * S16x48.size a ≤ (i a).val ∧ (i a).val < win0_6.index t a * S16x48.size a + S16x48.size a := by
  show i ∈ ((View.whole main_v11).slice (win0_6.rect t)).set ↔ _
  rw [View.set_slice_whole, Rect.mem_set_unit]
  exact Iff.rfl

/-- Batch entry `b` lies in the block the last chunk of tile `b / 16` writes back: the 64 tiles cover the array. -/
theorem cover (i : S1024x48.Idx) : ∃ t : Fin cfg0.N, (cfg0.win 6).flush t = true ∧ i ∈ ((cfg0.win 6).blk t).view.set := by
  have h0 : (i 0).val < 1024 := (i 0).isLt
  have h1 : (i 1).val < 48 := (i 1).isLt
  have hN : cfg0.N = 256 := N_0
  let t : Fin cfg0.N := ⟨4 * ((i 0).val / 16) + 3, by rw [hN]; omega⟩
  have hi := idx_out t
  refine ⟨t, (flush0_6 t).mpr (by show (4 * ((i 0).val / 16) + 3) % 4 = 3; omega), ?_⟩
  rw [mem_blk]
  intro a
  match a with
  | ⟨0, _⟩ =>
    show win0_6.index t 0 * 16 ≤ (i 0).val ∧ (i 0).val < win0_6.index t 0 * 16 + 16
    rw [hi.1]
    show (4 * ((i 0).val / 16) + 3) / 4 * 16 ≤ (i 0).val ∧ (i 0).val < (4 * ((i 0).val / 16) + 3) / 4 * 16 + 16
    omega
  | ⟨1, _⟩ =>
    show win0_6.index t 1 * 48 ≤ (i 1).val ∧ (i 1).val < win0_6.index t 1 * 48 + 48
    rw [hi.2]; omega

/-- So the result array ends holding the pooled result. -/
theorem final (c : Dev nD) : (dats m 0 c).arrAt 6 cfg0.N = result m c :=
  (dats m 0 c).arrAt_eq_of_cover 6 (result m c) (flushed_eq m c) cover

/-- The kernel's run, read: the result array at the pooled result, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Tile

end
-- ==== Proof.RefPooled.lean ====
/-
  The reference program's result, read at an index, is the pooled two-branch attention with every mean taken last.

  The reference computes, operation by operation: the cosine similarity of the spatial and the image rows, the
  spatial rows scaled by it (branch 0) stacked with the temporal rows (branch 1), the hidden layer
  `tanh (z · W1 + b1)` of each branch, its projection on `W2` averaged over the tokens (the branch's score), the
  two-way softmax of the two scores shifted by their maximum, and the softmax-weighted sum of the two branches
  averaged over the tokens. Each lemma below reads ONE of these stages at explicit coordinates from the stages
  before it; the last theorem chains them.
-/
import proofs.«128080_j89644557402222_2_alg».proof.Proof.Pooled
import proofs.«128080_j89644557402222_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Pooled

/-! ## The argument arrays by coordinates -/

/-- A [1024, 512, 48] array read by its three coordinates. -/
abbrev tok (x : S1024x512x48.Idx → EReal) : Tok := fun b n d => x (ix3 b n d)
/-- The [48, 128] weight matrix `W1` read by its two coordinates. -/
abbrev mat1 (x : S48x128.Idx → EReal) : Fin 48 → Fin 128 → EReal := fun d c => x (ix2 d c)
/-- The [128] bias `b1` read by its coordinate. -/
abbrev vec1 (x : S128.Idx → EReal) : Fin 128 → EReal := fun c => x (ix1 c)
/-- The [128, 1] weight matrix `W2` read as a vector of 128 entries. -/
abbrev col2 (x : S128x1.Idx → EReal) : Fin 128 → EReal := fun c => x (ix2 c 0)

variable (x0 x1 x2 : S1024x512x48.Idx → EReal) (x3 : S48x128.Idx → EReal) (x4 : S128.Idx → EReal)
  (x5 : S128x1.Idx → EReal)

/-! ## The constants -/

/-- The f32 bit pattern of `-∞` is the bottom element of the extended reals. -/
theorem ofBits_negInf : Ideal.ofBits .f32 0xFF800000#32 = (⊥ : EReal) := by
  simp [Ideal.ofBits, Ideal.ieee]

/-! ## The cosine similarity (operations %0 – %7) -/

/-- Token `(b, n)` with feature `k` inserted is `(b, n, k)`. -/
theorem idx_v1 (b : Fin 1024) (n : Fin 512) (k : Fin 48) : idx_main_v1 (ix2 b n) k = ix3 b n k :=
  funext fun a => by match a with | ⟨0, _⟩ => rfl | ⟨1, _⟩ => rfl | ⟨2, _⟩ => rfl

/-- The numerator: the inner product of the spatial row and the image row. -/
theorem num_apply (b : Fin 1024) (n : Fin 512) :
    val_main_v1 (F := Ideal) x0 x1 (ix2 b n) = ∑ d, x1 (ix3 b n d) * x0 (ix3 b n d) := by
  rw [val_main_v1_apply, val_main_cst_apply, Ideal.ofBits_def, Ideal.ofBits_zero_f32, zero_add]
  refine Finset.sum_congr rfl fun d _ => ?_
  rw [idx_v1, val_main_v0_apply, Ideal.mulf_def]

/-- The squared norm of a row, then its root: the norm of the spatial row. -/
theorem normS_apply (b : Fin 1024) (n : Fin 512) :
    val_main_v2 (F := Ideal) x1 (ix2 b n) = Ideal.sqrt (∑ d, x1 (ix3 b n d) * x1 (ix3 b n d)) := by
  rw [val_main_v2_apply, Ideal.hostUnary_sqrt_def, val_main_call0_v1_apply, val_main_call0_cst_apply,
    Ideal.ofBits_def, Ideal.ofBits_zero_f32, zero_add]
  refine congrArg Ideal.sqrt (Finset.sum_congr rfl fun d _ => ?_)
  rw [show idx_main_call0_v1 (ix2 b n) d = ix3 b n d from idx_v1 b n d, val_main_call0_v0_apply, Ideal.mulf_def]

/-- The norm of the image row. -/
theorem normI_apply (b : Fin 1024) (n : Fin 512) :
    val_main_v3 (F := Ideal) x0 (ix2 b n) = Ideal.sqrt (∑ d, x0 (ix3 b n d) * x0 (ix3 b n d)) := by
  rw [val_main_v3_apply, Ideal.hostUnary_sqrt_def, val_main_call1_v1_apply, val_main_call1_cst_apply,
    Ideal.ofBits_def, Ideal.ofBits_zero_f32, zero_add]
  refine congrArg Ideal.sqrt (Finset.sum_congr rfl fun d _ => ?_)
  rw [show idx_main_call1_v1 (ix2 b n) d = ix3 b n d from idx_v1 b n d, val_main_call1_v0_apply, Ideal.mulf_def]

/-- The quotient of the inner product by the floored product of the norms is the cosine similarity. -/
theorem sim_apply (b : Fin 1024) (n : Fin 512) :
    val_main_v7 (F := Ideal) x0 x1 (ix2 b n) = sim (tok x0) (tok x1) b n := by
  rw [val_main_v7_apply, Ideal.hostDivf_def, val_main_v6_apply, Ideal.maximumf_def, val_main_v4_apply,
    Ideal.mulf_def, val_main_v5_apply, val_main_cst_0_apply, Ideal.ofBits_def, num_apply, normS_apply, normI_apply]
  rfl

/-! ## The two branches (operations %8 – %13) -/

/-- Branch 0: the similarity, broadcast along the features, times the spatial row. -/
theorem weighted_apply (b : Fin 1024) (n : Fin 512) (d : Fin 48) :
    val_main_v10 (F := Ideal) x0 x1 (ix3 b n d) = weighted (tok x0) (tok x1) b n d := by
  rw [val_main_v10_apply, Ideal.mulf_def, val_main_v9_apply, val_main_v8_apply,
    show idx_main_v8 (idx_main_v9 (ix3 b n d)) = ix2 b n from
      funext fun a => by match a with | ⟨0, _⟩ => rfl | ⟨1, _⟩ => rfl,
    sim_apply]
  rfl

/-- Dropping the unit axis of `(b, 0, n, d)` gives `(b, n, d)`. -/
theorem idx_v11 (b : Fin 1024) (n : Fin 512) (d : Fin 48) : idx_main_v11 (ix4 b 0 n d) = ix3 b n d :=
  funext fun a => by match a with | ⟨0, _⟩ => rfl | ⟨1, _⟩ => rfl | ⟨2, _⟩ => rfl

/-- The stacked array on its branch 0 is the weighted spatial array: a coordinate `0` on the joined axis falls in
    the first piece of the concatenation. -/
theorem stack_zero (b : Fin 1024) (n : Fin 512) (d : Fin 48) :
    val_main_v13 (F := Ideal) x0 x1 x2 (ix4 b 0 n d) = weighted (tok x0) (tok x1) b n d := by
  unfold val_main_v13
  refine (concatenate_pair_apply_left (t := S1024x2x512x48) (s₁ := S1024x1x512x48) (s₂ := S1024x1x512x48) 1
    _ _ _ (ix4 b 0 n d) rfl (ix4 b 0 n d)
    (fun a => by match a with | ⟨0, _⟩ => rfl | ⟨1, _⟩ => rfl | ⟨2, _⟩ => rfl | ⟨3, _⟩ => rfl)).trans ?_
  rw [val_main_v11_apply, idx_v11, weighted_apply]

/-- The stacked array on its branch 1 is the temporal array: a coordinate `1` on the joined axis falls in the
    second piece, at its coordinate `1 - 1 = 0`. -/
theorem stack_one (b : Fin 1024) (n : Fin 512) (d : Fin 48) :
    val_main_v13 (F := Ideal) x0 x1 x2 (ix4 b 1 n d) = tok x2 b n d := by
  unfold val_main_v13
  refine (concatenate_pair_apply_right (t := S1024x2x512x48) (s₁ := S1024x1x512x48) (s₂ := S1024x1x512x48) 1
    _ _ _ (ix4 b 1 n d) rfl rfl (ix4 b 0 n d)
    (fun a => by match a with
      | ⟨0, _⟩ => exact fun _ => rfl | ⟨1, _⟩ => exact fun h => absurd rfl h
      | ⟨2, _⟩ => exact fun _ => rfl | ⟨3, _⟩ => exact fun _ => rfl)
    rfl).trans ?_
  rw [val_main_v12_apply, show idx_main_v12 (ix4 b 0 n d) = ix3 b n d from idx_v11 b n d]

/-! ## A branch's hidden layer and score (operations %14 – %22)

The lemmas of this section are stated for either branch `k` at once: they take the array `Z` that the stacked array is
on branch `k` as a hypothesis. -/

section Branch
variable (b : Fin 1024) (k : Fin 2) (Z : Tok)

/-- The first matrix product contracts the feature axis: `(b, k, n, c)` reads the stacked array at `(b, k, n, d)`. -/
theorem lidx_v14 (n : Fin 512) (c : Fin 128) (d : Fin 48) : lidx_main_v14 (ix4 b k n c) d = ix4 b k n d :=
  funext fun a => by match a with | ⟨0, _⟩ => rfl | ⟨1, _⟩ => rfl | ⟨2, _⟩ => rfl | ⟨3, _⟩ => rfl

/-- … and `W1` at `(d, c)`. -/
theorem ridx_v14 (n : Fin 512) (c : Fin 128) (d : Fin 48) : ridx_main_v14 (ix4 b k n c) d = ix2 d c :=
  funext fun a => by match a with | ⟨0, _⟩ => rfl | ⟨1, _⟩ => rfl

/-- The bias, broadcast over batch, branch and token, is read at the hidden unit `c`. -/
theorem bias_apply (n : Fin 512) (c : Fin 128) :
    val_main_v16 (F := Ideal) x4 (ix4 b k n c) = vec1 x4 c := by
  rw [val_main_v16_apply, val_main_v15_apply,
    show idx_main_v15 (idx_main_v16 (ix4 b k n c)) = ix1 c from funext fun a => by match a with | ⟨0, _⟩ => rfl]

/-- The hidden layer of branch `k`: `tanh (Z b n · W1 + b1)`. -/
theorem hidden_apply (hZ : ∀ n d, val_main_v13 (F := Ideal) x0 x1 x2 (ix4 b k n d) = Z b n d)
    (n : Fin 512) (c : Fin 128) :
    val_main_v18 (F := Ideal) x0 x1 x2 x3 x4 (ix4 b k n c) = hidden Z (mat1 x3) (vec1 x4) b n c := by
  rw [val_main_v18_apply, Ideal.hostUnary_tanh_def, val_main_v17_apply, Ideal.addf_def, val_main_v14_apply,
    bias_apply]
  refine congrArg (fun s => Ideal.tanh (s + vec1 x4 c)) (Finset.sum_congr rfl fun d _ => ?_)
  rw [lidx_v14, ridx_v14, hZ]

/-- The second matrix product contracts the hidden units: `(b, k, n, 0)` reads the hidden layer at `(b, k, n, c)`. -/
theorem lidx_v19 (n : Fin 512) (c : Fin 128) : lidx_main_v19 (ix4 b k n 0) c = ix4 b k n c :=
  funext fun a => by match a with | ⟨0, _⟩ => rfl | ⟨1, _⟩ => rfl | ⟨2, _⟩ => rfl | ⟨3, _⟩ => rfl

/-- … and `W2` at `(c, 0)`. -/
theorem ridx_v19 (n : Fin 512) (c : Fin 128) : ridx_main_v19 (ix4 b k n 0) c = ix2 c 0 :=
  funext fun a => by match a with | ⟨0, _⟩ => rfl | ⟨1, _⟩ => rfl

/-- A token's hidden row projected on `W2`. -/
theorem proj_apply (hZ : ∀ n d, val_main_v13 (F := Ideal) x0 x1 x2 (ix4 b k n d) = Z b n d) (n : Fin 512) :
    val_main_v19 (F := Ideal) x0 x1 x2 x3 x4 x5 (ix4 b k n 0)
      = ∑ c, hidden Z (mat1 x3) (vec1 x4) b n c * col2 x5 c := by
  rw [val_main_v19_apply]
  refine Finset.sum_congr rfl fun c _ => ?_
  rw [lidx_v19, ridx_v19, hidden_apply x0 x1 x2 x3 x4 b k Z hZ]

/-- The score's sum runs over the tokens: `(b, k, 0)` with token `n` inserted is `(b, k, n, 0)`. -/
theorem idx_v20 (n : Fin 512) : idx_main_v20 (ix3 b k 0) n = ix4 b k n 0 :=
  funext fun a => by match a with | ⟨0, _⟩ => rfl | ⟨1, _⟩ => rfl | ⟨2, _⟩ => rfl | ⟨3, _⟩ => rfl

/-- The score of branch `k`: the projections summed over the tokens, divided by 512. -/
theorem score_apply (hZ : ∀ n d, val_main_v13 (F := Ideal) x0 x1 x2 (ix4 b k n d) = Z b n d) :
    val_main_v22 (F := Ideal) x0 x1 x2 x3 x4 x5 (ix3 b k 0)
      = scoreMeanLast (hidden Z (mat1 x3) (vec1 x4)) (col2 x5) b := by
  rw [val_main_v22_apply, Ideal.hostDivf_def, val_main_v21_apply, val_main_cst_2_apply, Ideal.ofBits_def,
    val_main_v20_apply, val_main_cst_1_apply, Ideal.ofBits_def, Ideal.ofBits_zero_f32, zero_add]
  refine congrArg (fun s => Ideal.div s c512) (Finset.sum_congr rfl fun n _ => ?_)
  rw [idx_v20, proj_apply x0 x1 x2 x3 x4 x5 b k Z hZ]

end Branch

/-- The score of branch 0, the weighted spatial array. -/
abbrev score0 (b : Fin 1024) : EReal :=
  scoreMeanLast (hidden (weighted (tok x0) (tok x1)) (mat1 x3) (vec1 x4)) (col2 x5) b
/-- The score of branch 1, the temporal array. -/
abbrev score1 (b : Fin 1024) : EReal :=
  scoreMeanLast (hidden (tok x2) (mat1 x3) (vec1 x4)) (col2 x5) b

/-- Branch 0's score. -/
theorem score_zero (b : Fin 1024) :
    val_main_v22 (F := Ideal) x0 x1 x2 x3 x4 x5 (ix3 b 0 0) = score0 x0 x1 x3 x4 x5 b :=
  score_apply x0 x1 x2 x3 x4 x5 b 0 _ (stack_zero x0 x1 x2 b)

/-- Branch 1's score. -/
theorem score_one (b : Fin 1024) :
    val_main_v22 (F := Ideal) x0 x1 x2 x3 x4 x5 (ix3 b 1 0) = score1 x2 x3 x4 x5 b :=
  score_apply x0 x1 x2 x3 x4 x5 b 1 _ (stack_one x0 x1 x2 b)

/-! ## The softmax over the two branches (operations %23 – %33) -/

/-- A fold of `max` from `⊥` over the two-element index set is the maximum of the two values. -/
theorem fold_max_fin2 (f : Fin 2 → EReal) :
    (Finset.univ : Finset (Fin 2)).fold max ⊥ f = max (f 0) (f 1) := by
  rw [show (Finset.univ : Finset (Fin 2)) = {0, 1} from rfl, Finset.fold_insert (by decide), Finset.fold_singleton,
    max_bot_right]

/-- `(b, 0)` with branch `k` inserted on the reduced axis is `(b, k, 0)`. -/
theorem lift_v23 (h : S1024x2x1.Reduces [1] S1024x1) (b : Fin 1024) (k : Fin 2) :
    h.lift (ix2 b 0) k = ix3 b k 0 := by
  funext c; apply Fin.ext
  match c with | ⟨0, _⟩ => rfl | ⟨1, _⟩ => rfl | ⟨2, _⟩ => rfl

/-- The maximum-reduction over the branch axis, from `-∞`, is the larger of the two scores. -/
theorem max_apply (b : Fin 1024) :
    val_main_v23 (F := Ideal) x0 x1 x2 x3 x4 x5 (ix2 b 0)
      = max (score0 x0 x1 x3 x4 x5 b) (score1 x2 x3 x4 x5 b) := by
  have h : S1024x2x1.Reduces [1] S1024x1 := by decide
  unfold val_main_v23
  rw [Host.reduce_eq_fold_single FloatOps.maximumf _ _ Facts₀.reducesTo_S1024x2x1_S1024x1_d1 h Facts₀.h_S_,
    val_main_cst_3_apply, Ideal.ofBits_def, ofBits_negInf]
  refine (fold_max_fin2 _).trans ?_
  exact congrArg₂ max
    ((congrArg (val_main_v22 (F := Ideal) x0 x1 x2 x3 x4 x5) (lift_v23 h b 0)).trans (score_zero x0 x1 x2 x3 x4 x5 b))
    ((congrArg (val_main_v22 (F := Ideal) x0 x1 x2 x3 x4 x5) (lift_v23 h b 1)).trans (score_one x0 x1 x2 x3 x4 x5 b))

/-- The shift of the softmax: the maximum again with `-∞`, which changes nothing. -/
theorem shift_apply (b : Fin 1024) :
    val_main_v25 (F := Ideal) x0 x1 x2 x3 x4 x5 (ix2 b 0)
      = max (score0 x0 x1 x3 x4 x5 b) (score1 x2 x3 x4 x5 b) := by
  rw [val_main_v25_apply, Ideal.maximumf_def, val_main_v24_apply, val_main_cst_4_apply, Ideal.ofBits_def,
    ofBits_negInf, max_apply, max_bot_left]

/-- The shift broadcast back over the branch axis. -/
theorem shift_bcast (b : Fin 1024) (k : Fin 2) :
    val_main_v27 (F := Ideal) x0 x1 x2 x3 x4 x5 (ix3 b k 0)
      = max (score0 x0 x1 x3 x4 x5 b) (score1 x2 x3 x4 x5 b) := by
  rw [val_main_v27_apply, val_main_v26_apply,
    show idx_main_v26 (idx_main_v27 (ix3 b k 0)) = ix2 b 0 from
      funext fun a => by match a with | ⟨0, _⟩ => rfl | ⟨1, _⟩ => rfl,
    shift_apply]

/-- The exponential of a branch's shifted score. -/
theorem exp_apply (b : Fin 1024) (k : Fin 2) :
    val_main_v29 (F := Ideal) x0 x1 x2 x3 x4 x5 (ix3 b k 0)
      = Ideal.exp (val_main_v22 (F := Ideal) x0 x1 x2 x3 x4 x5 (ix3 b k 0)
          - max (score0 x0 x1 x3 x4 x5 b) (score1 x2 x3 x4 x5 b)) := by
  rw [val_main_v29_apply, Ideal.hostUnary_exp_def, val_main_v28_apply, Ideal.subf_def, shift_bcast]

/-- `(b, 0)` with branch `k` inserted on the summed axis is `(b, k, 0)`. -/
theorem idx_v30 (b : Fin 1024) (k : Fin 2) : idx_main_v30 (ix2 b 0) k = ix3 b k 0 :=
  funext fun a => by match a with | ⟨0, _⟩ => rfl | ⟨1, _⟩ => rfl | ⟨2, _⟩ => rfl

/-- The softmax's denominator: the two exponentials added. -/
theorem den_apply (b : Fin 1024) :
    val_main_v30 (F := Ideal) x0 x1 x2 x3 x4 x5 (ix2 b 0)
      = Ideal.exp (score0 x0 x1 x3 x4 x5 b - max (score0 x0 x1 x3 x4 x5 b) (score1 x2 x3 x4 x5 b))
        + Ideal.exp (score1 x2 x3 x4 x5 b - max (score0 x0 x1 x3 x4 x5 b) (score1 x2 x3 x4 x5 b)) := by
  rw [val_main_v30_apply, val_main_cst_5_apply, Ideal.ofBits_def, Ideal.ofBits_zero_f32, zero_add,
    Fin.sum_univ_two, idx_v30, idx_v30, exp_apply, exp_apply, score_zero, score_one]

/-- The denominator broadcast back over the branch axis. -/
theorem den_bcast (b : Fin 1024) (k : Fin 2) :
    val_main_v32 (F := Ideal) x0 x1 x2 x3 x4 x5 (ix3 b k 0)
      = val_main_v30 (F := Ideal) x0 x1 x2 x3 x4 x5 (ix2 b 0) := by
  rw [val_main_v32_apply, val_main_v31_apply,
    show idx_main_v31 (idx_main_v32 (ix3 b k 0)) = ix2 b 0 from
      funext fun a => by match a with | ⟨0, _⟩ => rfl | ⟨1, _⟩ => rfl]

/-- The softmax weight of branch 0. -/
theorem soft_zero (b : Fin 1024) :
    val_main_v33 (F := Ideal) x0 x1 x2 x3 x4 x5 (ix3 b 0 0)
      = soft0 (score0 x0 x1 x3 x4 x5 b) (score1 x2 x3 x4 x5 b) := by
  rw [val_main_v33_apply, Ideal.hostDivf_def, den_bcast, den_apply, exp_apply, score_zero]
  rfl

/-- The softmax weight of branch 1. -/
theorem soft_one (b : Fin 1024) :
    val_main_v33 (F := Ideal) x0 x1 x2 x3 x4 x5 (ix3 b 1 0)
      = soft1 (score0 x0 x1 x3 x4 x5 b) (score1 x2 x3 x4 x5 b) := by
  rw [val_main_v33_apply, Ideal.hostDivf_def, den_bcast, den_apply, exp_apply, score_one]
  rfl

/-! ## The weighted sum of the branches and the mean over the tokens (operations %34 – %40) -/

/-- The softmax weights broadcast over the tokens and the features. -/
theorem beta_apply (b : Fin 1024) (k : Fin 2) (n : Fin 512) (d : Fin 48) :
    val_main_v35 (F := Ideal) x0 x1 x2 x3 x4 x5 (ix4 b k n d)
      = val_main_v33 (F := Ideal) x0 x1 x2 x3 x4 x5 (ix3 b k 0) := by
  rw [val_main_v35_apply, val_main_v34_apply,
    show idx_main_v34 (idx_main_v35 (ix4 b k n d)) = ix3 b k 0 from
      funext fun a => by match a with | ⟨0, _⟩ => rfl | ⟨1, _⟩ => rfl | ⟨2, _⟩ => rfl]

/-- `(b, n, d)` with branch `k` inserted on the summed axis is `(b, k, n, d)`. -/
theorem idx_v37 (b : Fin 1024) (n : Fin 512) (d : Fin 48) (k : Fin 2) :
    idx_main_v37 (ix3 b n d) k = ix4 b k n d :=
  funext fun a => by match a with | ⟨0, _⟩ => rfl | ⟨1, _⟩ => rfl | ⟨2, _⟩ => rfl | ⟨3, _⟩ => rfl

/-- The two branches' rows, each times its softmax weight, added. -/
theorem mix_apply (b : Fin 1024) (n : Fin 512) (d : Fin 48) :
    val_main_v37 (F := Ideal) x0 x1 x2 x3 x4 x5 (ix3 b n d)
      = weighted (tok x0) (tok x1) b n d * soft0 (score0 x0 x1 x3 x4 x5 b) (score1 x2 x3 x4 x5 b)
        + tok x2 b n d * soft1 (score0 x0 x1 x3 x4 x5 b) (score1 x2 x3 x4 x5 b) := by
  rw [val_main_v37_apply, val_main_cst_6_apply, Ideal.ofBits_def, Ideal.ofBits_zero_f32, zero_add,
    Fin.sum_univ_two, idx_v37, idx_v37, val_main_v36_apply, val_main_v36_apply, Ideal.mulf_def, Ideal.mulf_def,
    stack_zero, stack_one, beta_apply, beta_apply, soft_zero, soft_one]

/-- `(b, d)` with token `n` inserted on the summed axis is `(b, n, d)`. -/
theorem idx_v38 (b : Fin 1024) (d : Fin 48) (n : Fin 512) : idx_main_v38 (ix2 b d) n = ix3 b n d :=
  funext fun a => by match a with | ⟨0, _⟩ => rfl | ⟨1, _⟩ => rfl | ⟨2, _⟩ => rfl

/-- The result at `(b, d)`: the mixed rows summed over the tokens, divided by 512. -/
theorem pooled_apply (b : Fin 1024) (d : Fin 48) :
    val_main_v40 (F := Ideal) x0 x1 x2 x3 x4 x5 (ix2 b d)
      = pooledMeanLast (tok x0) (tok x1) (tok x2) (mat1 x3) (vec1 x4) (col2 x5) b d := by
  rw [val_main_v40_apply, Ideal.hostDivf_def, val_main_v39_apply, val_main_cst_8_apply, Ideal.ofBits_def,
    val_main_v38_apply, val_main_cst_7_apply, Ideal.ofBits_def, Ideal.ofBits_zero_f32, zero_add]
  refine congrArg (fun s => Ideal.div s c512) (Finset.sum_congr rfl fun n _ => ?_)
  rw [idx_v38, mix_apply]

/-- The reference's result is the pooled attention with every mean taken last, index by index. -/
theorem val_eq_pooled (x0 x1 x2 : S1024x512x48.Idx → EReal) (x3 : S48x128.Idx → EReal) (x4 : S128.Idx → EReal)
    (x5 : S128x1.Idx → EReal) :
    Read.val_main_v40 (F := Ideal) x0 x1 x2 x3 x4 x5
      = fun i => Cert.Pooled.pooledMeanLast (fun b n d => x0 (ValueIdx.ix3 b n d)) (fun b n d => x1 (ValueIdx.ix3 b n d))
          (fun b n d => x2 (ValueIdx.ix3 b n d)) (fun d c => x3 (ValueIdx.ix2 d c)) (fun c => x4 (ValueIdx.ix1 c))
          (fun c => x5 (ValueIdx.ix2 c 0)) (i 0) (i 1) := by
  funext i
  obtain ⟨b, d, rfl⟩ : ∃ b d, i = ix2 b d := ⟨i 0, i 1, eq_ix2 i⟩
  exact pooled_apply x0 x1 x2 x3 x4 x5 b d

end Cert.ReferenceIdeal.RefValue

end
-- ==== Proof.PooledLaw.lean ====
/-
  The pooled two-branch attention takes the same value in its two arrangements (the mean over the tokens taken
  last, or taken first) as soon as the six argument arrays hold real numbers.

  Plan. Every quantity that occurs is then a real number seen inside the extended reals:
  • a finite sum, a product, a difference, a maximum of reals is a real;
  • the similarity's divisor is at least the positive floor, so it is a nonzero real and the quotient is a real;
  • the hyperbolic tangent of any extended real, infinite ones included, is a real, so the hidden layer is real
    whatever it is fed;
  • the softmax divisor is a sum of two exponentials, hence a positive real.
  Once both sides are coercions of real expressions, the equality is linear algebra over the reals: a mean commutes
  with a projection and with a weighted sum, and dividing by 512 is multiplying by 1/512.
-/
import proofs.«128080_j89644557402222_2_alg».proof.Proof.Pooled
import Idealize.ShloMosaic.PureOps.Ideal.Laws
import Mathlib

noncomputable section

namespace Cert.Pooled

open Idealize.ShloMosaic

/-! ### Real numbers inside the extended reals -/

/-- An extended real is real when it is the coercion of a real number. -/
abbrev IsReal (x : EReal) : Prop := ∃ r : ℝ, x = (r : EReal)

/-- A finite sum of coercions is the coercion of the sum. -/
theorem coe_sum {ι : Type*} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The coercion is monotone, so the maximum of two coercions is the coercion of the maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The sum of two reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type*} (s : Finset ι) (f : ι → EReal) (h : ∀ i, IsReal (f i)) :
    IsReal (∑ i ∈ s, f i) := by
  choose g hg using h
  refine ⟨∑ i ∈ s, g i, ?_⟩
  rw [← coe_sum]
  exact Finset.sum_congr rfl fun i _ => hg i

/-! ### The three literals -/

/-- The pattern 0x44000000 is the real number 512 = 2^23 · 2^(136 - 127 - 23). -/
theorem c512_eq : c512 = ((512 : ℝ) : EReal) := by
  simp [c512, Ideal.ofBits, Ideal.ieee, -EReal.coe_mul]; norm_num

/-- The pattern 0x3B000000 is the real number 1/512 = 2^23 · 2^(118 - 127 - 23). -/
theorem inv512_eq : inv512 = ((1 / 512 : ℝ) : EReal) := by
  simp [inv512, Ideal.ofBits, Ideal.ieee, -EReal.coe_mul]; norm_num

/-- The pattern 0x322BCC77 is a positive real number, (2^23 + 2870391) · 2^(100 - 127 - 23). -/
theorem eps_pos : ∃ e : ℝ, 0 < e ∧ eps = (e : EReal) := by
  have h : eps = (((2 ^ 23 + 2870391 : ℕ) : ℝ) * (2 : ℝ) ^ ((100 : ℤ) - 127 - 23) : ℝ) := by
    simp [eps, Ideal.ofBits, Ideal.ieee, -EReal.coe_mul]
  exact ⟨_, by positivity, h⟩

/-! ### The similarity and branch 0 -/

/-- The square root of a sum of squares of reals is a real (the sum is nonnegative). -/
theorem isReal_sqrt_sum_sq (f : Fin 48 → EReal) (h : ∀ d, IsReal (f d)) :
    IsReal (Ideal.sqrt (∑ d, f d * f d)) := by
  choose g hg using h
  have hsum : (∑ d, f d * f d) = ((∑ d, g d * g d : ℝ) : EReal) := by
    rw [← coe_sum]
    exact Finset.sum_congr rfl fun d _ => by rw [hg d, EReal.coe_mul]
  have hnonneg : ¬ (∑ d, g d * g d) < 0 := not_lt.mpr (Finset.sum_nonneg fun d _ => mul_self_nonneg (g d))
  rw [hsum, Ideal.sqrt_coe, if_neg hnonneg]
  exact ⟨_, rfl⟩

/-- The similarity of two real rows is real: its divisor is at least the positive floor, hence a nonzero real. -/
theorem isReal_sim (I S : Tok) (hI : ∀ b n d, IsReal (I b n d)) (hS : ∀ b n d, IsReal (S b n d))
    (b : Fin 1024) (n : Fin 512) : IsReal (sim I S b n) := by
  obtain ⟨e, he, hE⟩ := eps_pos
  obtain ⟨p, hp⟩ := isReal_sqrt_sum_sq (S b n) (hS b n)
  obtain ⟨q, hq⟩ := isReal_sqrt_sum_sq (I b n) (hI b n)
  obtain ⟨m, hm⟩ := isReal_sum Finset.univ (fun d => S b n d * I b n d) fun d => isReal_mul (hS b n d) (hI b n d)
  have hne : max (p * q) e ≠ 0 := (lt_of_lt_of_le he (le_max_right _ _)).ne'
  unfold sim
  rw [hp, hq, hE, hm, ← EReal.coe_mul, coe_max, Ideal.div_coe hne, ← EReal.coe_mul]
  exact ⟨_, rfl⟩

/-- Branch 0, the spatial row scaled by the similarity, is real. -/
theorem isReal_weighted (I S : Tok) (hI : ∀ b n d, IsReal (I b n d)) (hS : ∀ b n d, IsReal (S b n d))
    (b : Fin 1024) (n : Fin 512) (d : Fin 48) : IsReal (weighted I S b n d) :=
  isReal_mul (isReal_sim I S hI hS b n) (hS b n d)

/-! ### The hidden layer -/

/-- The hyperbolic tangent of any extended real is real: it is -1 at the bottom, 1 at the top. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Hence the hidden layer is real whatever branch it is fed. -/
theorem isReal_hidden (Z : Tok) (W1 : Fin 48 → Fin 128 → EReal) (B1 : Fin 128 → EReal)
    (b : Fin 1024) (n : Fin 512) (c : Fin 128) : IsReal (hidden Z W1 B1 b n c) :=
  isReal_tanh _

/-! ### The scores -/

/-- Over the reals, the mean of the projections is the projection of the mean. -/
theorem real_score (h : Fin 512 → Fin 128 → ℝ) (w : Fin 128 → ℝ) :
    (∑ n, ∑ c, h n c * w c) * (1 / 512) = ∑ c, ((∑ n, h n c) * (1 / 512)) * w c := by
  rw [Finset.sum_comm, Finset.sum_mul]
  refine Finset.sum_congr rfl fun c _ => ?_
  rw [← Finset.sum_mul]
  ring

/-- For a real hidden layer and real projection weights the two scores agree, and the common value is real. -/
theorem score_eq (H : Fin 1024 → Fin 512 → Fin 128 → EReal) (W2 : Fin 128 → EReal)
    (hH : ∀ b n c, IsReal (H b n c)) (hW : ∀ c, IsReal (W2 c)) (b : Fin 1024) :
    scoreMeanLast H W2 b = scoreMeanFirst H W2 b ∧ IsReal (scoreMeanFirst H W2 b) := by
  choose h hh using hH b
  choose w hw using hW
  have hLast : scoreMeanLast H W2 b = (((∑ n, ∑ c, h n c * w c) * (1 / 512) : ℝ) : EReal) := by
    simp only [scoreMeanLast, hh, hw, c512_eq, Ideal.div_coe (show (512 : ℝ) ≠ 0 by norm_num),
      ← EReal.coe_mul, coe_sum]
  have hFirst : scoreMeanFirst H W2 b = ((∑ c, ((∑ n, h n c) * (1 / 512)) * w c : ℝ) : EReal) := by
    simp only [scoreMeanFirst, hh, hw, inv512_eq, ← EReal.coe_mul, coe_sum]
  exact ⟨by rw [hLast, hFirst, real_score], ⟨_, hFirst⟩⟩

/-! ### The two-way softmax -/

/-- The softmax weights of two real scores are real: the divisor is a sum of two exponentials, so it is positive. -/
theorem isReal_soft {x y : EReal} (hx : IsReal x) (hy : IsReal y) : IsReal (soft0 x y) ∧ IsReal (soft1 x y) := by
  obtain ⟨a, rfl⟩ := hx
  obtain ⟨c, rfl⟩ := hy
  have hne : Real.exp (a - max a c) + Real.exp (c - max a c) ≠ 0 :=
    (add_pos (Real.exp_pos _) (Real.exp_pos _)).ne'
  constructor
  · unfold soft0
    rw [coe_max, ← EReal.coe_sub, ← EReal.coe_sub, Ideal.exp_coe, Ideal.exp_coe, ← EReal.coe_add,
      Ideal.div_coe hne, ← EReal.coe_mul]
    exact ⟨_, rfl⟩
  · unfold soft1
    rw [coe_max, ← EReal.coe_sub, ← EReal.coe_sub, Ideal.exp_coe, Ideal.exp_coe, ← EReal.coe_add,
      Ideal.div_coe hne, ← EReal.coe_mul]
    exact ⟨_, rfl⟩

/-! ### The pooled result -/

/-- Over the reals, the mean of a weighted sum of two rows is the weighted sum of the two means. -/
theorem real_pool (z t : Fin 512 → ℝ) (p q : ℝ) :
    (∑ n, (z n * p + t n * q)) * (1 / 512)
      = p * ((∑ n, z n) * (1 / 512)) + q * ((∑ n, t n) * (1 / 512)) := by
  rw [Finset.sum_add_distrib, ← Finset.sum_mul, ← Finset.sum_mul]
  ring

/-- The same over the extended reals, for two real rows and two real weights. -/
theorem pool_eq (z t : Fin 512 → EReal) (β0 β1 : EReal) (hz : ∀ n, IsReal (z n)) (ht : ∀ n, IsReal (t n))
    (h0 : IsReal β0) (h1 : IsReal β1) :
    Ideal.div (∑ n, (z n * β0 + t n * β1)) c512
      = β0 * ((∑ n, z n) * inv512) + β1 * ((∑ n, t n) * inv512) := by
  choose z' hz' using hz
  choose t' ht' using ht
  obtain ⟨p, rfl⟩ := h0
  obtain ⟨q, rfl⟩ := h1
  simp only [hz', ht', c512_eq, inv512_eq, Ideal.div_coe (show (512 : ℝ) ≠ 0 by norm_num),
    ← EReal.coe_mul, ← EReal.coe_add, coe_sum]
  rw [real_pool]

/-- The two arrangements of the pooled attention agree on real arguments. -/
theorem pooledMeanLast_eq_pooledMeanFirst (I S T : Tok) (W1 : Fin 48 → Fin 128 → EReal) (B1 W2 : Fin 128 → EReal)
    (hI : ∀ b n d, ∃ r : ℝ, I b n d = (r : EReal)) (hS : ∀ b n d, ∃ r : ℝ, S b n d = (r : EReal))
    (hT : ∀ b n d, ∃ r : ℝ, T b n d = (r : EReal)) (hW1 : ∀ d c, ∃ r : ℝ, W1 d c = (r : EReal))
    (hB1 : ∀ c, ∃ r : ℝ, B1 c = (r : EReal)) (hW2 : ∀ c, ∃ r : ℝ, W2 c = (r : EReal))
    (b : Fin 1024) (d : Fin 48) :
    pooledMeanLast I S T W1 B1 W2 b d = pooledMeanFirst I S T W1 B1 W2 b d := by
  -- both branches' scores agree in the two arrangements and are real
  obtain ⟨e0, r0⟩ := score_eq (hidden (weighted I S) W1 B1) W2 (isReal_hidden _ W1 B1) hW2 b
  obtain ⟨e1, r1⟩ := score_eq (hidden T W1 B1) W2 (isReal_hidden _ W1 B1) hW2 b
  -- so the softmax weights are the same real numbers on both sides
  obtain ⟨s0, s1⟩ := isReal_soft r0 r1
  unfold pooledMeanLast pooledMeanFirst
  rw [e0, e1]
  exact pool_eq (fun n => weighted I S b n d) (fun n => T b n d) _ _
    (fun n => isReal_weighted I S hI hS b n d) (fun n => hT b n d) s0 s1

end Cert.Pooled

end
-- ==== Proof.Finite.lean ====
/-
  The precondition says every argument entry is a real number.

  The printed precondition tests, for each of the six argument arrays, that the absolute value of every entry is below
  `+∞`, and conjoins the six tests. An extended real whose absolute value `max x (-x)` is below `+∞` is neither
  infinity, hence a real.
-/
import proofs.«128080_j89644557402222_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

variable [Facts]
open Facts

instance : Subsingleton S_.Idx := ⟨fun a b => funext fun d => d.elim0⟩

/-- The word `0x7F800000` denotes `+∞`. -/
theorem inf_word : Ideal.ofBits .f32 0x7F800000#32 = ⊤ := by simp [Ideal.ofBits, Ideal.ieee]

/-- An extended real whose absolute value compares below `+∞` is a real. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- Under the precondition every entry of every argument array is a real. -/
theorem reals_of_pre (a0 a1 a2 : FVec Ideal S1024x512x48 .f32) (a3 : FVec Ideal S48x128 .f32) (a4 : FVec Ideal S128 .f32)
    (a5 : FVec Ideal S128x1 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i)⟩

end Cert.Pre_finite_inputs.Finite

end
-- ==== Proof.lean ====
/-
  The kernel and its reference compute one function of finite arguments.

  Both programs form, per batch entry and token, the cosine similarity of the spatial and image feature rows, scale the
  spatial row by it (branch 0) beside the temporal row (branch 1), pass both through `tanh (· W1 + b1)`, score each branch
  by the token mean of its hidden rows projected on `W2`, and mix the two branches' token means with the softmax of the
  two scores. The reference takes every mean over the 512 tokens last (it projects and weights every token, then sums and
  divides by 512); the kernel takes it first: it walks the tokens in four chunks of 128, keeps running sums of the hidden
  rows and of the feature rows, multiplies the finished sums by the dyadic `1/512`, and only then projects and weights.
  It also runs both branches through ONE matrix product, packing the two 48-wide rows into one 128-wide row against a
  block-structured 128 × 256 weight whose other entries are zero.

  Over the extended reals the packed product is the two separate products (a zero times anything is zero), a sum in
  chunks is the sum, and a change of float format is the identity. The two placements of the mean agree because the
  projection and the weighting are linear, which holds once every quantity is a real number: the precondition makes the
  arguments real, `tanh` is real at every extended real, the similarity's divisor is at least `ε > 0`, and the softmax's
  divisor is at least `1`. So the claim's algebraic conjunct holds; the ideal pass rewrote nothing, so `preserves` is
  trivial; the three frames are the programs' runs.
-/
import proofs.«128080_j89644557402222_2_alg».proof.Defs
import proofs.«128080_j89644557402222_2_alg».proof.Proof.Gen.Kernel
import proofs.«128080_j89644557402222_2_alg».proof.Proof.Gen.Kernel.Skeleton
import proofs.«128080_j89644557402222_2_alg».proof.Proof.Gen.Kernel.Launch
import proofs.«128080_j89644557402222_2_alg».proof.Proof.Gen.Kernel.Points
import proofs.«128080_j89644557402222_2_alg».proof.Proof.Gen.Kernel.Frame
import proofs.«128080_j89644557402222_2_alg».proof.Proof.Gen.KernelIdeal
import proofs.«128080_j89644557402222_2_alg».proof.Proof.Gen.KernelIdeal.Skeleton
import proofs.«128080_j89644557402222_2_alg».proof.Proof.Gen.KernelIdeal.Launch
import proofs.«128080_j89644557402222_2_alg».proof.Proof.Gen.KernelIdeal.Points
import proofs.«128080_j89644557402222_2_alg».proof.Proof.Gen.KernelIdeal.Frame
import proofs.«128080_j89644557402222_2_alg».proof.Proof.Gen.ReferenceIdeal
import proofs.«128080_j89644557402222_2_alg».proof.Proof.Gen.Pre_finite_inputs
import proofs.«128080_j89644557402222_2_alg».proof.Proof.Gen.KernelIdeal.Value
import proofs.«128080_j89644557402222_2_alg».proof.Proof.Gen.ReferenceIdeal.Run
import proofs.«128080_j89644557402222_2_alg».proof.Proof.Gen.ReferenceIdeal.Read
import proofs.«128080_j89644557402222_2_alg».proof.Proof.Result
import proofs.«128080_j89644557402222_2_alg».proof.Proof.RefPooled
import proofs.«128080_j89644557402222_2_alg».proof.Proof.PooledLaw
import proofs.«128080_j89644557402222_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame. -/
theorem frame_kernel : Cert.frame_Kernel := fun m ρ _ => Cert.Kernel.Gen.frame m ρ

/-- The idealized kernel runs and leaves its arguments as they were: its generated frame. -/
theorem frame_kernelIdeal : Cert.frame_KernelIdeal := fun m ρ _ => Cert.KernelIdeal.Gen.frame m ρ

/-- The reference runs and leaves its arguments as they were: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, the kernel's result array ends at the pooled result with every mean taken
    first, the reference's at the pooled result with every mean taken last; under the precondition the arguments are
    real, and the two are one function. -/
theorem algebraic : Cert.algebraic_KernelIdeal_ReferenceIdeal := by
  intro m ρ m' ρ' hpre hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5⟩ := Cert.Pre_finite_inputs.Finite.reals_of_pre _ _ _ _ _ _ (hpre c)
  rw [Cert.ReferenceIdeal.Read.val_main_v40_eq, Cert.ReferenceIdeal.RefValue.val_eq_pooled, (hagree c).1, (hagree c).2.1,
    (hagree c).2.2.1, (hagree c).2.2.2.1, (hagree c).2.2.2.2.1, (hagree c).2.2.2.2.2]
  funext i
  exact Cert.Pooled.pooledMeanLast_eq_pooledMeanFirst _ _ _ _ _ _ (fun b n d => r0 _) (fun b n d => r1 _)
    (fun b n d => r2 _) (fun d h => r3 _) (fun h => r4 _) (fun h => r5 _) (i 0) (i 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
